-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x3 : Shape := ⟨3, ![32, 8192, 3]⟩
abbrev S8192x16 : Shape := ⟨2, ![8192, 16]⟩
abbrev S8192 : Shape := ⟨1, ![8192]⟩
abbrev S32x256 : Shape := ⟨2, ![32, 256]⟩
abbrev S256x1024 : Shape := ⟨2, ![256, 1024]⟩
abbrev S1024 : Shape := ⟨1, ![1024]⟩
abbrev S1024x24576 : Shape := ⟨2, ![1024, 24576]⟩
abbrev S24576 : Shape := ⟨1, ![24576]⟩
abbrev S_ : Shape := ⟨0, ![]⟩

class Facts : Prop where
  bcast_S_S32x8192x3 : S_.BroadcastsInDim S32x8192x3 (![] : Fin 0 → Fin S32x8192x3.rank)
  reducesTo_S32x8192x3_S_d0_1_2 : S32x8192x3.ReducesTo [0, 1, 2] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S32x256 : S_.BroadcastsInDim S32x256 (![] : Fin 0 → Fin S32x256.rank)
  reducesTo_S32x256_S_d0_1 : S32x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x24576 : S_.BroadcastsInDim S1024x24576 (![] : Fin 0 → Fin S1024x24576.rank)
  reducesTo_S1024x24576_S_d0_1 : S1024x24576.ReducesTo [0, 1] S_
  bcast_S_S24576 : S_.BroadcastsInDim S24576 (![] : Fin 0 → Fin S24576.rank)
  reducesTo_S24576_S_d0 : S24576.ReducesTo [0] S_

variable [Facts]

def fn_part1 {F : FTy → Type} [FloatOps F] (main_arg6 : FVec F S1024 .f32) (main_arg7 : FVec F S1024x24576 .f32) (main_arg8 : FVec F S24576 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x24576 .f32 := Host.absf main_arg7
  let main_cst_8 : FVec F S_ .f32 := constant S_ .f32 0x7F800000#32
  let main_v25 : FVec F S1024x24576 .f32 := broadcastInDim S1024x24576 ![] bcast_S_S1024x24576 main_cst_8
  let main_v26 : IVec S1024x24576 1 := cmpf .olt main_v24 main_v25
  let main_c_9 : IVec S_ 1 := constantI S_ 1 1#1
  let main_v27 : IVec S_ 1 := (fun x v => Host.reduce IntOp.andi x v reducesTo_S1024x24576_S_d0_1 h_S_) main_v26 main_c_9
  let main_v28 : IVec S_ 1 := andi main_v23 main_v27
  let main_v29 : FVec F S24576 .f32 := Host.absf main_arg8
  let main_cst_10 : FVec F S_ .f32 := constant S_ .f32 0x7F800000#32
  let main_v30 : FVec F S24576 .f32 := broadcastInDim S24576 ![] bcast_S_S24576 main_cst_10
  let main_v31 : IVec S24576 1 := cmpf .olt main_v29 main_v30
  let main_c_11 : IVec S_ 1 := constantI S_ 1 1#1
  let main_v32 : IVec S_ 1 := (fun x v => Host.reduce IntOp.andi x v reducesTo_S24576_S_d0 h_S_) main_v31 main_c_11
  let main_v33 : IVec S_ 1 := andi main_v28 main_v32
  main_v33

def fn {F : FTy → Type} [FloatOps F] (main_arg0 : FVec F S32x8192x3 .f32) (main_arg1 : IVec S8192x16 32) (main_arg2 : IVec S8192 32) (main_arg3 : FVec F S8192x16 .f32) (main_arg4 : FVec F S32x256 .f32) (main_arg5 : FVec F S256x1024 .f32) (main_arg6 : FVec F S1024 .f32) (main_arg7 : FVec F S1024x24576 .f32) (main_arg8 : FVec F S24576 .f32) : IVec S_ 1 :=
  let main_v0 : FVec F S32x8192x3 .f32 := Host.absf main_arg0
  let main_cst : FVec F S_ .f32 := constant S_ .f32 0x7F800000#32
  let main_v1 : FVec F S32x8192x3 .f32 := broadcastInDim S32x8192x3 ![] bcast_S_S32x8192x3 main_cst
  let main_v2 : IVec S32x8192x3 1 := cmpf .olt main_v0 main_v1
  let main_c : IVec S_ 1 := constantI S_ 1 1#1
  let main_v3 : IVec S_ 1 := (fun x v => Host.reduce IntOp.andi x v reducesTo_S32x8192x3_S_d0_1_2 h_S_) main_v2 main_c
  let main_v4 : FVec F S8192x16 .f32 := Host.absf main_arg3
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S32x256 .f32 := Host.absf main_arg4
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S256x1024 .f32 := Host.absf main_arg5
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg6 main_arg7 main_arg8 main_v13 main_v16
-- ==== Kernel.lean ====
abbrev S32x8192x3 : Shape := ⟨3, ![32, 8192, 3]⟩
abbrev S8192x16 : Shape := ⟨2, ![8192, 16]⟩
abbrev S8192 : Shape := ⟨1, ![8192]⟩
abbrev S32x256 : Shape := ⟨2, ![32, 256]⟩
abbrev S256x1024 : Shape := ⟨2, ![256, 1024]⟩
abbrev S1024 : Shape := ⟨1, ![1024]⟩
abbrev S1024x24576 : Shape := ⟨2, ![1024, 24576]⟩
abbrev S24576 : Shape := ⟨1, ![24576]⟩
abbrev S1x1024 : Shape := ⟨2, ![1, 1024]⟩
abbrev S32x1024 : Shape := ⟨2, ![32, 1024]⟩
abbrev S1x24576 : Shape := ⟨2, ![1, 24576]⟩
abbrev S32x24576 : Shape := ⟨2, ![32, 24576]⟩
abbrev S_ : Shape := ⟨0, ![]⟩
abbrev S8192x16x1 : Shape := ⟨3, ![8192, 16, 1]⟩
abbrev S32x8192x16x3 : Shape := ⟨4, ![32, 8192, 16, 3]⟩
abbrev S32x8192x1x3 : Shape := ⟨4, ![32, 8192, 1, 3]⟩
abbrev S1x8192x16 : Shape := ⟨3, ![1, 8192, 16]⟩
abbrev S32x8192x16 : Shape := ⟨3, ![32, 8192, 16]⟩
abbrev S16 : Shape := ⟨1, ![16]⟩
abbrev S1x16 : Shape := ⟨2, ![1, 16]⟩
abbrev S8192x1 : Shape := ⟨2, ![8192, 1]⟩
abbrev S32x8192 : Shape := ⟨2, ![32, 8192]⟩
abbrev S32 : Shape := ⟨1, ![32]⟩
abbrev S2x32x1024 : Shape := ⟨3, ![2, 32, 1024]⟩
abbrev S1024x2048 : Shape := ⟨2, ![1024, 2048]⟩
abbrev S1x2048 : Shape := ⟨2, ![1, 2048]⟩
abbrev S32x2048 : Shape := ⟨2, ![32, 2048]⟩
abbrev S1x32x1024 : Shape := ⟨3, ![1, 32, 1024]⟩

abbrev nBuf : Space → Nat
  | .hbm => 93
  | .vmem => 21
  | .smem => 0
  | _ => 0

abbrev bufTy : (tb : Table) → Fin (tcTables nBuf tb) → BufTy
  | .hbm, ⟨0, _⟩ => ⟨S32x8192x3, .f32⟩
  | .hbm, ⟨1, _⟩ => ⟨S8192x16, .i32⟩
  | .hbm, ⟨2, _⟩ => ⟨S8192, .i32⟩
  | .hbm, ⟨3, _⟩ => ⟨S8192x16, .f32⟩
  | .hbm, ⟨4, _⟩ => ⟨S32x256, .f32⟩
  | .hbm, ⟨5, _⟩ => ⟨S256x1024, .f32⟩
  | .hbm, ⟨6, _⟩ => ⟨S1024, .f32⟩
  | .hbm, ⟨7, _⟩ => ⟨S1024x24576, .f32⟩
  | .hbm, ⟨8, _⟩ => ⟨S24576, .f32⟩
  | .hbm, ⟨9, _⟩ => ⟨S1x1024, .f32⟩
  | .hbm, ⟨10, _⟩ => ⟨S32x1024, .f32⟩
  | .hbm, ⟨11, _⟩ => ⟨S1x24576, .f32⟩
  | .hbm, ⟨12, _⟩ => ⟨S32x24576, .f32⟩
  | .hbm, ⟨13, _⟩ => ⟨S32x8192x3, .f32⟩
  | .hbm, ⟨14, _⟩ => ⟨S32x8192x3, .f32⟩
  | .hbm, ⟨15, _⟩ => ⟨S_, .i32⟩
  | .hbm, ⟨16, _⟩ => ⟨S8192x16, .i32⟩
  | .hbm, ⟨17, _⟩ => ⟨S8192x16, .i1⟩
  | .hbm, ⟨18, _⟩ => ⟨S_, .i32⟩
  | .hbm, ⟨19, _⟩ => ⟨S8192x16, .i32⟩
  | .hbm, ⟨20, _⟩ => ⟨S8192x16, .i32⟩
  | .hbm, ⟨21, _⟩ => ⟨S8192x16, .i32⟩
  | .hbm, ⟨22, _⟩ => ⟨S8192x16x1, .i32⟩
  | .hbm, ⟨23, _⟩ => ⟨S32x8192x16x3, .f32⟩
  | .hbm, ⟨24, _⟩ => ⟨S32x8192x1x3, .f32⟩
  | .hbm, ⟨25, _⟩ => ⟨S32x8192x16x3, .f32⟩
  | .hbm, ⟨26, _⟩ => ⟨S32x8192x16x3, .f32⟩
  | .hbm, ⟨27, _⟩ => ⟨S1x8192x16, .f32⟩
  | .hbm, ⟨28, _⟩ => ⟨S_, .f32⟩
  | .hbm, ⟨29, _⟩ => ⟨S1x8192x16, .f32⟩
  | .hbm, ⟨30, _⟩ => ⟨S1x8192x16, .f32⟩
  | .hbm, ⟨31, _⟩ => ⟨S32x8192x16x3, .f32⟩
  | .hbm, ⟨32, _⟩ => ⟨S_, .f32⟩
  | .hbm, ⟨33, _⟩ => ⟨S32x8192x16, .f32⟩
  | .hbm, ⟨34, _⟩ => ⟨S32x8192x16, .f32⟩
  | .hbm, ⟨35, _⟩ => ⟨S32x8192x16, .f32⟩
  | .hbm, ⟨36, _⟩ => ⟨S16, .i32⟩
  | .hbm, ⟨37, _⟩ => ⟨S1x16, .i32⟩
  | .hbm, ⟨38, _⟩ => ⟨S8192x1, .i32⟩
  | .hbm, ⟨39, _⟩ => ⟨S8192x16, .i32⟩
  | .hbm, ⟨40, _⟩ => ⟨S8192x16, .i32⟩
  | .hbm, ⟨41, _⟩ => ⟨S8192x16, .i1⟩
  | .hbm, ⟨42, _⟩ => ⟨S1x8192x16, .i1⟩
  | .hbm, ⟨43, _⟩ => ⟨S_, .f32⟩
  | .hbm, ⟨44, _⟩ => ⟨S32x8192x16, .i1⟩
  | .hbm, ⟨45, _⟩ => ⟨S32x8192x16, .f32⟩
  | .hbm, ⟨46, _⟩ => ⟨S32x8192x16, .f32⟩
  | .hbm, ⟨47, _⟩ => ⟨S_, .f32⟩
  | .hbm, ⟨48, _⟩ => ⟨S32x8192x16, .f32⟩
  | .hbm, ⟨49, _⟩ => ⟨S_, .f32⟩
  | .hbm, ⟨50, _⟩ => ⟨S32x8192, .f32⟩
  | .hbm, ⟨51, _⟩ => ⟨S_, .f32⟩
  | .hbm, ⟨52, _⟩ => ⟨S32x8192, .f32⟩
  | .hbm, ⟨53, _⟩ => ⟨S32x8192, .f32⟩
  | .hbm, ⟨54, _⟩ => ⟨S_, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S32x8192, .f32⟩
  | .hbm, ⟨65, _⟩ => ⟨S_, .f32⟩
  | .hbm, ⟨66, _⟩ => ⟨S32x8192, .f32⟩
  | .hbm, ⟨67, _⟩ => ⟨S32x8192, .f32⟩
  | .hbm, ⟨68, _⟩ => ⟨S32x8192x16, .f32⟩
  | .hbm, ⟨69, _⟩ => ⟨S_, .f32⟩
  | .hbm, ⟨70, _⟩ => ⟨S32x8192x16, .f32⟩
  | .hbm, ⟨71, _⟩ => ⟨S32x8192x16, .f32⟩
  | .hbm, ⟨72, _⟩ => ⟨S32x8192x16, .f32⟩
  | .hbm, ⟨73, _⟩ => ⟨S32x8192x16, .f32⟩
  | .hbm, ⟨74, _⟩ => ⟨S32x8192x16x3, .f32⟩
  | .hbm, ⟨75, _⟩ => ⟨S32x8192x16x3, .f32⟩
  | .hbm, ⟨76, _⟩ => ⟨S32x8192x16x3, .f32⟩
  | .hbm, ⟨77, _⟩ => ⟨S32x8192x16x3, .f32⟩
  | .hbm, ⟨78, _⟩ => ⟨S_, .f32⟩
  | .hbm, ⟨79, _⟩ => ⟨S32x8192x3, .f32⟩
  | .hbm, ⟨80, _⟩ => ⟨S32x8192x1x3, .f32⟩
  | .hbm, ⟨81, _⟩ => ⟨S32x8192x16x3, .f32⟩
  | .hbm, ⟨82, _⟩ => ⟨S_, .f32⟩
  | .hbm, ⟨83, _⟩ => ⟨S32x8192x3, .f32⟩
  | .hbm, ⟨84, _⟩ => ⟨S_, .f32⟩
  | .hbm, ⟨85, _⟩ => ⟨S32x8192x3, .f32⟩
  | .hbm, ⟨86, _⟩ => ⟨S32x8192x3, .f32⟩
  | .hbm, ⟨87, _⟩ => ⟨S32x8192x3, .f32⟩
  | .hbm, ⟨88, _⟩ => ⟨S32x24576, .f32⟩
  | .hbm, ⟨89, _⟩ => ⟨S2x32x1024, .f32⟩
  | .hbm, ⟨90, _⟩ => ⟨S_, .f32⟩
  | .hbm, ⟨91, _⟩ => ⟨S32x1024, .f32⟩
  | .hbm, ⟨92, _⟩ => ⟨S32x256, .f32⟩
  | .local _ .vmem, ⟨0, _⟩ => ⟨S32x256, .f32⟩
  | .local _ .vmem, ⟨1, _⟩ => ⟨S256x1024, .f32⟩
  | .local _ .vmem, ⟨2, _⟩ => ⟨S1x1024, .f32⟩
  | .local _ .vmem, ⟨3, _⟩ => ⟨S32x1024, .f32⟩
  | .local _ .vmem, ⟨4, _⟩ => ⟨S32x1024, .f32⟩
  | .local _ .vmem, ⟨5, _⟩ => ⟨S1024x2048, .f32⟩
  | .local _ .vmem, ⟨6, _⟩ => ⟨S1024x2048, .f32⟩
  | .local _ .vmem, ⟨7, _⟩ => ⟨S1x2048, .f32⟩
  | .local _ .vmem, ⟨8, _⟩ => ⟨S1x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S1024x2048, .f32⟩
  | .local _ .vmem, ⟨14, _⟩ => ⟨S1024x2048, .f32⟩
  | .local _ .vmem, ⟨15, _⟩ => ⟨S1x32x1024, .f32⟩
  | .local _ .vmem, ⟨16, _⟩ => ⟨S1x32x1024, .f32⟩
  | .local _ .vmem, ⟨17, _⟩ => ⟨S32x1024, .f32⟩
  | .local _ .vmem, ⟨18, _⟩ => ⟨S32x1024, .f32⟩
  | .local _ .vmem, ⟨19, _⟩ => ⟨S256x1024, .f32⟩
  | .local _ .vmem, ⟨20, _⟩ => ⟨S32x256, .f32⟩
  | _, _ => ⟨S32x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c : Ref sig .tc := ⟨.hbm, 15, rfl⟩
abbrev main_call0_v6 : Ref sig .tc := ⟨.hbm, 16, rfl⟩
abbrev main_call0_v7 : Ref sig .tc := ⟨.hbm, 17, rfl⟩
abbrev main_call0_c_0 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_cst : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_cst_1 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_cst_2 : Ref sig .tc := ⟨.hbm, 43, rfl⟩
abbrev main_call0_v30_1 : Ref sig .tc := ⟨.hbm, 44, rfl⟩
abbrev main_call0_call0_v1 : Ref sig .tc := ⟨.hbm, 45, rfl⟩
abbrev main_call0_v30_0 : Ref sig .tc := ⟨.hbm, 46, rfl⟩
abbrev main_call0_call0_cst : Ref sig .tc := ⟨.hbm, 47, rfl⟩
abbrev main_call0_v30_2 : Ref sig .tc := ⟨.hbm, 48, rfl⟩
abbrev main_call0_cst_3 : Ref sig .tc := ⟨.hbm, 49, rfl⟩
abbrev main_call0_v31 : Ref sig .tc := ⟨.hbm, 50, rfl⟩
abbrev main_call0_cst_4 : Ref sig .tc := ⟨.hbm, 51, rfl⟩
abbrev main_call0_v32 : Ref sig .tc := ⟨.hbm, 52, rfl⟩
abbrev main_call0_v33 : Ref sig .tc := ⟨.hbm, 53, rfl⟩
abbrev main_call0_cst_5 : Ref sig .tc := ⟨.hbm, 54, rfl⟩
abbrev main_call0_v34 : Ref sig .tc := ⟨.hbm, 55, rfl⟩
abbrev main_call0_cst_6 : Ref sig .tc := ⟨.hbm, 56, rfl⟩
abbrev main_call0_v35 : Ref sig .tc := ⟨.hbm, 57, rfl⟩
abbrev main_v0_0 : Ref sig .tc := ⟨.hbm, 58, rfl⟩
abbrev main_call0_cst_7 : Ref sig .tc := ⟨.hbm, 59, rfl⟩
abbrev main_call0_v37 : Ref sig .tc := ⟨.hbm, 60, rfl⟩
abbrev main_call0_cst_8 : Ref sig .tc := ⟨.hbm, 61, rfl⟩
abbrev main_call0_v38 : Ref sig .tc := ⟨.hbm, 62, rfl⟩
abbrev main_call0_v39 : Ref sig .tc := ⟨.hbm, 63, rfl⟩
abbrev main_call0_v40 : Ref sig .tc := ⟨.hbm, 64, rfl⟩
abbrev main_call0_cst_9 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_call1_cst : Ref sig .tc := ⟨.hbm, 69, rfl⟩
abbrev main_call0_call1_v0 : Ref sig .tc := ⟨.hbm, 70, rfl⟩
abbrev main_call0_v44 : Ref sig .tc := ⟨.hbm, 71, rfl⟩
abbrev main_call0_v45 : Ref sig .tc := ⟨.hbm, 72, rfl⟩
abbrev main_call0_v46 : Ref sig .tc := ⟨.hbm, 73, rfl⟩
abbrev main_call0_v47 : Ref sig .tc := ⟨.hbm, 74, rfl⟩
abbrev main_call0_v48 : Ref sig .tc := ⟨.hbm, 75, rfl⟩
abbrev main_call0_v49 : Ref sig .tc := ⟨.hbm, 76, rfl⟩
abbrev main_call0_v50 : Ref sig .tc := ⟨.hbm, 77, rfl⟩
abbrev main_call0_cst_10 : Ref sig .tc := ⟨.hbm, 78, rfl⟩
abbrev main_call0_v51 : Ref sig .tc := ⟨.hbm, 79, rfl⟩
abbrev main_call0_v52 : Ref sig .tc := ⟨.hbm, 80, rfl⟩
abbrev main_call0_v53 : Ref sig .tc := ⟨.hbm, 81, rfl⟩
abbrev main_call0_cst_11 : Ref sig .tc := ⟨.hbm, 82, rfl⟩
abbrev main_call0_v54 : Ref sig .tc := ⟨.hbm, 83, rfl⟩
abbrev main_call0_cst_12 : Ref sig .tc := ⟨.hbm, 84, rfl⟩
abbrev main_call0_v55 : Ref sig .tc := ⟨.hbm, 85, rfl⟩
abbrev main_call0_v56 : Ref sig .tc := ⟨.hbm, 86, rfl⟩
abbrev main_call0_v57 : Ref sig .tc := ⟨.hbm, 87, rfl⟩
abbrev main_call0_v58 : Ref sig .tc := ⟨.hbm, 88, rfl⟩
abbrev main_call0_v59 : Ref sig .tc := ⟨.hbm, 89, rfl⟩
abbrev main_call0_cst_13 : Ref sig .tc := ⟨.hbm, 90, rfl⟩
abbrev main_call0_v60 : Ref sig .tc := ⟨.hbm, 91, rfl⟩
abbrev main_v0_1 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc3_sem3_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 6], ![false, false]⟩

def cc2_transform_0 (i : grid2.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x32x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S32x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  shapeCasts_S1024_S1x1024 : S1024.ShapeCasts S1x1024
  shapeCasts_S24576_S1x24576 : S24576.ShapeCasts S1x24576
  shapeCasts_S32x24576_S32x8192x3 : S32x24576.ShapeCasts S32x8192x3
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  bcast_S32x8192x3_S32x8192x1x3_0_1_3 : S32x8192x3.BroadcastsInDim S32x8192x1x3 (![0, 1, 3] : Fin 3 → Fin S32x8192x1x3.rank)
  bcast_S32x8192x1x3_S32x8192x16x3_0_1_2_3 : S32x8192x1x3.BroadcastsInDim S32x8192x16x3 (![0, 1, 2, 3] : Fin 4 → Fin S32x8192x16x3.rank)
  bcast_S8192x16_S1x8192x16_1_2 : S8192x16.BroadcastsInDim S1x8192x16 (![1, 2] : Fin 2 → Fin S1x8192x16.rank)
  bcast_S_S1x8192x16 : S_.BroadcastsInDim S1x8192x16 (![] : Fin 0 → Fin S1x8192x16.rank)
  reducesTo_S32x8192x16x3_S32x8192x16_d3 : S32x8192x16x3.ReducesTo [3] S32x8192x16
  h_S_ : 0 < S_.numel
  bcast_S1x8192x16_S32x8192x16_0_1_2 : S1x8192x16.BroadcastsInDim S32x8192x16 (![0, 1, 2] : Fin 3 → Fin S32x8192x16.rank)
  bcast_S16_S1x16_1 : S16.BroadcastsInDim S1x16 (![1] : Fin 1 → Fin S1x16.rank)
  bcast_S8192_S8192x1_0 : S8192.BroadcastsInDim S8192x1 (![0] : Fin 1 → Fin S8192x1.rank)
  bcast_S1x16_S8192x16_0_1 : S1x16.BroadcastsInDim S8192x16 (![0, 1] : Fin 2 → Fin S8192x16.rank)
  bcast_S8192x1_S8192x16_0_1 : S8192x1.BroadcastsInDim S8192x16 (![0, 1] : Fin 2 → Fin S8192x16.rank)
  bcast_S_S32x8192x16 : S_.BroadcastsInDim S32x8192x16 (![] : Fin 0 → Fin S32x8192x16.rank)
  reducesTo_S32x8192x16_S32x8192_d2 : S32x8192x16.ReducesTo [2] S32x8192
  bcast_S_S32x8192 : S_.BroadcastsInDim S32x8192 (![] : Fin 0 → Fin S32x8192.rank)
  reducesTo_S32x8192_S32_d1 : S32x8192.ReducesTo [1] S32
  bcast_S_S32 : S_.BroadcastsInDim S32 (![] : Fin 0 → Fin S32.rank)
  bcast_S32_S32x8192_0 : S32.BroadcastsInDim S32x8192 (![0] : Fin 1 → Fin S32x8192.rank)
  bcast_S32x8192_S32x8192x16_0_1 : S32x8192.BroadcastsInDim S32x8192x16 (![0, 1] : Fin 2 → Fin S32x8192x16.rank)
  bcast_S32x8192x16_S32x8192x16x3_0_1_2 : S32x8192x16.BroadcastsInDim S32x8192x16x3 (![0, 1, 2] : Fin 3 → Fin S32x8192x16x3.rank)
  reducesTo_S32x8192x16x3_S32x8192x3_d2 : S32x8192x16x3.ReducesTo [2] S32x8192x3
  shapeCasts_S32x8192x3_S32x8192x1x3 : S32x8192x3.ShapeCasts S32x8192x1x3
  reducesTo_S32x8192x1x3_S32x8192x3_d2 : S32x8192x1x3.ReducesTo [2] S32x8192x3
  bcast_S_S32x8192x3 : S_.BroadcastsInDim S32x8192x3 (![] : Fin 0 → Fin S32x8192x3.rank)
  shapeCasts_S32x8192x3_S32x24576 : S32x8192x3.ShapeCasts S32x24576
  reducesTo_S2x32x1024_S32x1024_d0 : S2x32x1024.ReducesTo [0] S32x1024
  inb_S32x256_S32x256_0_0 : ∀ a, (![0, 0] : Fin 2 → Nat) a + S32x256.size a ≤ S32x256.size a
  h_S32x256 : 0 < S32x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  inb_S32x2048_S32x2048_0_0 : ∀ a, (![0, 0] : Fin 2 → Nat) a + S32x2048.size a ≤ S32x2048.size a
  h_S32x2048 : 0 < S32x2048.numel
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  shapeCasts_S32x2048_S32x2048 : S32x2048.ShapeCasts S32x2048
  natLt_1_32 : 1 < 32
  gather_S32x8192x3_S8192x16x1_S32x8192x16x3_03_1_n_n_1_2_3213_wf : GatherDims.WF S32x8192x3 S8192x16x1 S32x8192x16x3 [0, 3] [1] [] [1] [] 2 ![32, 1, 3]
  scatter_S32x8192x3_S8192x16x1_S32x8192x16x3_03_1_1_2_wf : ScatterDims.WF S32x8192x3 S8192x16x1 S32x8192x16x3 [0, 3] [1] [1] 2
  dot_S32x256_S256x1024_S32x1024_1_0_0_1_n_n_wf : DotDims.WF S32x256 S256x1024 S32x1024 [1] [0] [0] [1] [] []
  dot_S32x1024_S1024x2048_S32x2048_1_0_0_1_n_n_wf : DotDims.WF S32x1024 S1024x2048 S32x2048 [1] [0] [0] [1] [] []
  dot_S32x2048_S1024x2048_S32x1024_1_1_0_0_n_n_wf : DotDims.WF S32x2048 S1024x2048 S32x1024 [1] [1] [0] [0] [] []
  dot_S32x1024_S256x1024_S32x256_1_1_0_0_n_n_wf : DotDims.WF S32x1024 S256x1024 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x256.size a
  hwx0_0 : ∀ i : grid0.Coords, EltTy.bits .f32 = 32 ∨ (Rect.block (s := S32x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .f32 = 32 ∨ (Rect.block (s := S32x1024) S32x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x1024.size a
  hwx1_0 : ∀ i : grid1.Coords, EltTy.bits .f32 = 32 ∨ (Rect.block (s := S32x1024) S32x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x24576.size a
  hwx1_1 : ∀ i : grid1.Coords, EltTy.bits .f32 = 32 ∨ (Rect.block (s := S1024x24576) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x24576.size a
  hwx1_2 : ∀ i : grid1.Coords, EltTy.bits .f32 = 32 ∨ (Rect.block (s := S1x24576) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x2048.size a ≤ S32x24576.size a
  hwx1_3 : ∀ i : grid1.Coords, EltTy.bits .f32 = 32 ∨ (Rect.block (s := S32x24576) S32x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x2048.size a ≤ S32x24576.size a
  hwx2_0 : ∀ i : grid2.Coords, EltTy.bits .f32 = 32 ∨ (Rect.block (s := S32x24576) S32x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x24576.size a
  hwx2_1 : ∀ i : grid2.Coords, EltTy.bits .f32 = 32 ∨ (Rect.block (s := S1024x24576) S1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x32x1024.size a ≤ S2x32x1024.size a
  hwx2_2 : ∀ i : grid2.Coords, EltTy.bits .f32 = 32 ∨ (Rect.block (s := S2x32x1024) S1x32x1024.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S32x1024.size a ≤ S32x1024.size a
  hwx3_0 : ∀ i : grid3.Coords, EltTy.bits .f32 = 32 ∨ (Rect.block (s := S32x1024) S32x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x1024.size a ≤ S32x1024.size a
  hwx3_1 : ∀ i : grid3.Coords, EltTy.bits .f32 = 32 ∨ (Rect.block (s := S32x1024) S32x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S256x1024.size a
  hwx3_2 : ∀ i : grid3.Coords, EltTy.bits .f32 = 32 ∨ (Rect.block (s := S256x1024) S256x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x256.size a ≤ S32x256.size a
  hwx3_3 : ∀ i : grid3.Coords, EltTy.bits .f32 = 32 ∨ (Rect.block (s := S32x256) S32x256.size (cc3_transform_3 i) (hinb3_3 i)).WholeWords (EltTy.packing .f32)

variable [Facts₀]

def gather_S32x8192x3_S8192x16x1_S32x8192x16x3_03_1_n_n_1_2_3213 : GatherDims S32x8192x3 S8192x16x1 S32x8192x16x3 where
  offsetDims := [0, 3]
  collapsedSliceDims := [1]
  operandBatchingDims := []
  startIndicesBatchingDims := []
  startIndexMap := [1]
  indexVectorDim := 2
  sliceSizes := ![32, 1, 3]
  wf := gather_S32x8192x3_S8192x16x1_S32x8192x16x3_03_1_n_n_1_2_3213_wf
def scatter_S32x8192x3_S8192x16x1_S32x8192x16x3_03_1_1_2 : ScatterDims S32x8192x3 S8192x16x1 S32x8192x16x3 where
  updateWindowDims := [0, 3]
  insertedWindowDims := [1]
  scatterDimsToOperandDims := [1]
  indexVectorDim := 2
  wf := scatter_S32x8192x3_S8192x16x1_S32x8192x16x3_03_1_1_2_wf
def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S32x2048_S1024x2048_S32x1024_1_1_0_0_n_n : DotDims S32x2048 S1024x2048 S32x1024 where
  lhsContracting := [1]
  rhsContracting := [1]
  lhsNonContracting := [0]
  rhsNonContracting := [0]
  lhsBatch := []
  rhsBatch := []
  wf := dot_S32x2048_S1024x2048_S32x1024_1_1_0_0_n_n_wf
def dot_S32x1024_S256x1024_S32x256_1_1_0_0_n_n : DotDims S32x1024 S256x1024 S32x256 where
  lhsContracting := [1]
  rhsContracting := [1]
  lhsNonContracting := [0]
  rhsNonContracting := [0]
  lhsBatch := []
  rhsBatch := []
  wf := dot_S32x1024_S256x1024_S32x256_1_1_0_0_n_n_wf

abbrev win0_0 : Pipeline.Window sig grid0 :=
  Pipeline.Window.ofSpec (Memref.whole main_arg4) S32x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S32x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v1) S32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S32x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v58) S32x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v59) S1x32x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v60) S32x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v1) S32x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S256x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0_1) S32x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S32x8192x3 : Shape := ⟨3, ![32, 8192, 3]⟩
abbrev S8192x16 : Shape := ⟨2, ![8192, 16]⟩
abbrev S8192 : Shape := ⟨1, ![8192]⟩
abbrev S32x256 : Shape := ⟨2, ![32, 256]⟩
abbrev S256x1024 : Shape := ⟨2, ![256, 1024]⟩
abbrev S1024 : Shape := ⟨1, ![1024]⟩
abbrev S1024x24576 : Shape := ⟨2, ![1024, 24576]⟩
abbrev S24576 : Shape := ⟨1, ![24576]⟩
abbrev S32x1024 : Shape := ⟨2, ![32, 1024]⟩
abbrev S1x1024 : Shape := ⟨2, ![1, 1024]⟩
abbrev S_ : Shape := ⟨0, ![]⟩
abbrev S32x24576 : Shape := ⟨2, ![32, 24576]⟩
abbrev S1x24576 : Shape := ⟨2, ![1, 24576]⟩
abbrev S8192x16x1 : Shape := ⟨3, ![8192, 16, 1]⟩
abbrev S32x8192x16x3 : Shape := ⟨4, ![32, 8192, 16, 3]⟩
abbrev S32x8192x1x3 : Shape := ⟨4, ![32, 8192, 1, 3]⟩
abbrev S1x8192x16 : Shape := ⟨3, ![1, 8192, 16]⟩
abbrev S32x8192x16 : Shape := ⟨3, ![32, 8192, 16]⟩
abbrev S16 : Shape := ⟨1, ![16]⟩
abbrev S8192x1 : Shape := ⟨2, ![8192, 1]⟩
abbrev S1x16 : Shape := ⟨2, ![1, 16]⟩
abbrev S32x8192 : Shape := ⟨2, ![32, 8192]⟩
abbrev S32 : Shape := ⟨1, ![32]⟩

abbrev nBuf : Space → Nat
  | .hbm => 118
  | .vmem => 0
  | .smem => 0
  | _ => 0

abbrev bufTy : (tb : Table) → Fin (tcTables nBuf tb) → BufTy
  | .hbm, ⟨0, _⟩ => ⟨S32x8192x3, .f32⟩
  | .hbm, ⟨1, _⟩ => ⟨S8192x16, .i32⟩
  | .hbm, ⟨2, _⟩ => ⟨S8192, .i32⟩
  | .hbm, ⟨3, _⟩ => ⟨S8192x16, .f32⟩
  | .hbm, ⟨4, _⟩ => ⟨S32x256, .f32⟩
  | .hbm, ⟨5, _⟩ => ⟨S256x1024, .f32⟩
  | .hbm, ⟨6, _⟩ => ⟨S1024, .f32⟩
  | .hbm, ⟨7, _⟩ => ⟨S1024x24576, .f32⟩
  | .hbm, ⟨8, _⟩ => ⟨S24576, .f32⟩
  | .hbm, ⟨9, _⟩ => ⟨S32x1024, .f32⟩
  | .hbm, ⟨10, _⟩ => ⟨S1x1024, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S_, .f32⟩
  | .hbm, ⟨17, _⟩ => ⟨S32x1024, .f32⟩
  | .hbm, ⟨18, _⟩ => ⟨S32x1024, .i1⟩
  | .hbm, ⟨19, _⟩ => ⟨S_, .f32⟩
  | .hbm, ⟨20, _⟩ => ⟨S32x1024, .f32⟩
  | .hbm, ⟨21, _⟩ => ⟨S32x24576, .f32⟩
  | .hbm, ⟨22, _⟩ => ⟨S1x24576, .f32⟩
  | .hbm, ⟨23, _⟩ => ⟨S32x24576, .f32⟩
  | .hbm, ⟨24, _⟩ => ⟨S32x24576, .f32⟩
  | .hbm, ⟨25, _⟩ => ⟨S32x8192x3, .f32⟩
  | .hbm, ⟨26, _⟩ => ⟨S_, .i32⟩
  | .hbm, ⟨27, _⟩ => ⟨S8192x16, .i32⟩
  | .hbm, ⟨28, _⟩ => ⟨S8192x16, .i1⟩
  | .hbm, ⟨29, _⟩ => ⟨S_, .i32⟩
  | .hbm, ⟨30, _⟩ => ⟨S8192x16, .i32⟩
  | .hbm, ⟨31, _⟩ => ⟨S8192x16, .i32⟩
  | .hbm, ⟨32, _⟩ => ⟨S8192x16, .i32⟩
  | .hbm, ⟨33, _⟩ => ⟨S8192x16x1, .i32⟩
  | .hbm, ⟨34, _⟩ => ⟨S32x8192x16x3, .f32⟩
  | .hbm, ⟨35, _⟩ => ⟨S_, .i32⟩
  | .hbm, ⟨36, _⟩ => ⟨S8192x16, .i32⟩
  | .hbm, ⟨37, _⟩ => ⟨S8192x16, .i1⟩
  | .hbm, ⟨38, _⟩ => ⟨S_, .i32⟩
  | .hbm, ⟨39, _⟩ => ⟨S8192x16, .i32⟩
  | .hbm, ⟨40, _⟩ => ⟨S8192x16, .i32⟩
  | .hbm, ⟨41, _⟩ => ⟨S8192x16, .i32⟩
  | .hbm, ⟨42, _⟩ => ⟨S8192x16x1, .i32⟩
  | .hbm, ⟨43, _⟩ => ⟨S32x8192x16x3, .f32⟩
  | .hbm, ⟨44, _⟩ => ⟨S32x8192x1x3, .f32⟩
  | .hbm, ⟨45, _⟩ => ⟨S32x8192x16x3, .f32⟩
  | .hbm, ⟨46, _⟩ => ⟨S32x8192x16x3, .f32⟩
  | .hbm, ⟨47, _⟩ => ⟨S32x8192x1x3, .f32⟩
  | .hbm, ⟨48, _⟩ => ⟨S32x8192x16x3, .f32⟩
  | .hbm, ⟨49, _⟩ => ⟨S32x8192x16x3, .f32⟩
  | .hbm, ⟨50, _⟩ => ⟨S32x8192x16x3, .f32⟩
  | .hbm, ⟨51, _⟩ => ⟨S1x8192x16, .f32⟩
  | .hbm, ⟨52, _⟩ => ⟨S_, .f32⟩
  | .hbm, ⟨53, _⟩ => ⟨S1x8192x16, .f32⟩
  | .hbm, ⟨54, _⟩ => ⟨S1x8192x16, .f32⟩
  | .hbm, ⟨55, _⟩ => ⟨S32x8192x16x3, .f32⟩
  | .hbm, ⟨56, _⟩ => ⟨S_, .f32⟩
  | .hbm, ⟨57, _⟩ => ⟨S32x8192x16, .f32⟩
  | .hbm, ⟨58, _⟩ => ⟨S32x8192x16, .f32⟩
  | .hbm, ⟨59, _⟩ => ⟨S32x8192x16, .f32⟩
  | .hbm, ⟨60, _⟩ => ⟨S16, .i32⟩
  | .hbm, ⟨61, _⟩ => ⟨S8192x1, .i32⟩
  | .hbm, ⟨62, _⟩ => ⟨S1x16, .i32⟩
  | .hbm, ⟨63, _⟩ => ⟨S8192x16, .i32⟩
  | .hbm, ⟨64, _⟩ => ⟨S8192x16, .i32⟩
  | .hbm, ⟨65, _⟩ => ⟨S8192x16, .i1⟩
  | .hbm, ⟨66, _⟩ => ⟨S1x8192x16, .i1⟩
  | .hbm, ⟨67, _⟩ => ⟨S_, .f32⟩
  | .hbm, ⟨68, _⟩ => ⟨S32x8192x16, .i1⟩
  | .hbm, ⟨69, _⟩ => ⟨S32x8192x16, .f32⟩
  | .hbm, ⟨70, _⟩ => ⟨S32x8192x16, .f32⟩
  | .hbm, ⟨71, _⟩ => ⟨S_, .f32⟩
  | .hbm, ⟨72, _⟩ => ⟨S32x8192x16, .f32⟩
  | .hbm, ⟨73, _⟩ => ⟨S_, .f32⟩
  | .hbm, ⟨74, _⟩ => ⟨S32x8192, .f32⟩
  | .hbm, ⟨75, _⟩ => ⟨S_, .f32⟩
  | .hbm, ⟨76, _⟩ => ⟨S32x8192, .f32⟩
  | .hbm, ⟨77, _⟩ => ⟨S32x8192, .f32⟩
  | .hbm, ⟨78, _⟩ => ⟨S_, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S32x8192, .f32⟩
  | .hbm, ⟨89, _⟩ => ⟨S_, .f32⟩
  | .hbm, ⟨90, _⟩ => ⟨S32x8192, .f32⟩
  | .hbm, ⟨91, _⟩ => ⟨S32x8192, .f32⟩
  | .hbm, ⟨92, _⟩ => ⟨S32x8192x16, .f32⟩
  | .hbm, ⟨93, _⟩ => ⟨S_, .f32⟩
  | .hbm, ⟨94, _⟩ => ⟨S32x8192x16, .f32⟩
  | .hbm, ⟨95, _⟩ => ⟨S32x8192x16, .f32⟩
  | .hbm, ⟨96, _⟩ => ⟨S32x8192x16, .f32⟩
  | .hbm, ⟨97, _⟩ => ⟨S32x8192x16, .f32⟩
  | .hbm, ⟨98, _⟩ => ⟨S32x8192x16x3, .f32⟩
  | .hbm, ⟨99, _⟩ => ⟨S32x8192x16x3, .f32⟩
  | .hbm, ⟨100, _⟩ => ⟨S32x8192x16x3, .f32⟩
  | .hbm, ⟨101, _⟩ => ⟨S32x8192x16x3, .f32⟩
  | .hbm, ⟨102, _⟩ => ⟨S_, .f32⟩
  | .hbm, ⟨103, _⟩ => ⟨S32x8192x3, .f32⟩
  | .hbm, ⟨104, _⟩ => ⟨S32x8192x1x3, .f32⟩
  | .hbm, ⟨105, _⟩ => ⟨S32x8192x16x3, .f32⟩
  | .hbm, ⟨106, _⟩ => ⟨S_, .f32⟩
  | .hbm, ⟨107, _⟩ => ⟨S32x8192x3, .f32⟩
  | .hbm, ⟨108, _⟩ => ⟨S_, .f32⟩
  | .hbm, ⟨109, _⟩ => ⟨S32x8192x3, .f32⟩
  | .hbm, ⟨110, _⟩ => ⟨S32x8192x3, .f32⟩
  | .hbm, ⟨111, _⟩ => ⟨S32x8192x3, .f32⟩
  | .hbm, ⟨112, _⟩ => ⟨S32x24576, .f32⟩
  | .hbm, ⟨113, _⟩ => ⟨S32x1024, .f32⟩
  | .hbm, ⟨114, _⟩ => ⟨S_, .f32⟩
  | .hbm, ⟨115, _⟩ => ⟨S32x1024, .f32⟩
  | .hbm, ⟨116, _⟩ => ⟨S32x1024, .f32⟩
  | .hbm, ⟨117, _⟩ => ⟨S32x256, .f32⟩
  | _, _ => ⟨S32x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48_1 : Ref sig .tc := ⟨.hbm, 68, rfl⟩
abbrev main_call1_v1 : Ref sig .tc := ⟨.hbm, 69, rfl⟩
abbrev main_v48_0 : Ref sig .tc := ⟨.hbm, 70, rfl⟩
abbrev main_call1_cst : Ref sig .tc := ⟨.hbm, 71, rfl⟩
abbrev main_v48_2 : Ref sig .tc := ⟨.hbm, 72, rfl⟩
abbrev main_cst_7 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call2_cst : Ref sig .tc := ⟨.hbm, 93, rfl⟩
abbrev main_call2_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S24576_S1x24576_1 : S24576.BroadcastsInDim S1x24576 (![1] : Fin 1 → Fin S1x24576.rank)
  bcast_S1x24576_S32x24576_0_1 : S1x24576.BroadcastsInDim S32x24576 (![0, 1] : Fin 2 → Fin S32x24576.rank)
  shapeCasts_S32x24576_S32x8192x3 : S32x24576.ShapeCasts S32x8192x3
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  bcast_S32x8192x3_S32x8192x1x3_0_1_3 : S32x8192x3.BroadcastsInDim S32x8192x1x3 (![0, 1, 3] : Fin 3 → Fin S32x8192x1x3.rank)
  bcast_S32x8192x1x3_S32x8192x16x3_0_1_2_3 : S32x8192x1x3.BroadcastsInDim S32x8192x16x3 (![0, 1, 2, 3] : Fin 4 → Fin S32x8192x16x3.rank)
  bcast_S8192x16_S1x8192x16_1_2 : S8192x16.BroadcastsInDim S1x8192x16 (![1, 2] : Fin 2 → Fin S1x8192x16.rank)
  bcast_S_S1x8192x16 : S_.BroadcastsInDim S1x8192x16 (![] : Fin 0 → Fin S1x8192x16.rank)
  reducesTo_S32x8192x16x3_S32x8192x16_d3 : S32x8192x16x3.ReducesTo [3] S32x8192x16
  h_S_ : 0 < S_.numel
  bcast_S1x8192x16_S32x8192x16_0_1_2 : S1x8192x16.BroadcastsInDim S32x8192x16 (![0, 1, 2] : Fin 3 → Fin S32x8192x16.rank)
  bcast_S8192_S8192x1_0 : S8192.BroadcastsInDim S8192x1 (![0] : Fin 1 → Fin S8192x1.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S8192x1_S8192x16_0_1 : S8192x1.BroadcastsInDim S8192x16 (![0, 1] : Fin 2 → Fin S8192x16.rank)
  bcast_S_S32x8192x16 : S_.BroadcastsInDim S32x8192x16 (![] : Fin 0 → Fin S32x8192x16.rank)
  reducesTo_S32x8192x16_S32x8192_d2 : S32x8192x16.ReducesTo [2] S32x8192
  bcast_S_S32x8192 : S_.BroadcastsInDim S32x8192 (![] : Fin 0 → Fin S32x8192.rank)
  reducesTo_S32x8192_S32_d1 : S32x8192.ReducesTo [1] S32
  bcast_S_S32 : S_.BroadcastsInDim S32 (![] : Fin 0 → Fin S32.rank)
  bcast_S32_S32x8192_0 : S32.BroadcastsInDim S32x8192 (![0] : Fin 1 → Fin S32x8192.rank)
  bcast_S32x8192_S32x8192x16_0_1 : S32x8192.BroadcastsInDim S32x8192x16 (![0, 1] : Fin 2 → Fin S32x8192x16.rank)
  bcast_S32x8192x16_S32x8192x16x3_0_1_2 : S32x8192x16.BroadcastsInDim S32x8192x16x3 (![0, 1, 2] : Fin 3 → Fin S32x8192x16x3.rank)
  reducesTo_S32x8192x16x3_S32x8192x3_d2 : S32x8192x16x3.ReducesTo [2] S32x8192x3
  shapeCasts_S32x8192x3_S32x8192x1x3 : S32x8192x3.ShapeCasts S32x8192x1x3
  reducesTo_S32x8192x1x3_S32x8192x3_d2 : S32x8192x1x3.ReducesTo [2] S32x8192x3
  bcast_S_S32x8192x3 : S_.BroadcastsInDim S32x8192x3 (![] : Fin 0 → Fin S32x8192x3.rank)
  shapeCasts_S32x8192x3_S32x24576 : S32x8192x3.ShapeCasts S32x24576
  dot_S32x256_S256x1024_S32x1024_1_0_0_1_n_n_wf : DotDims.WF S32x256 S256x1024 S32x1024 [1] [0] [0] [1] [] []
  dot_S32x1024_S1024x24576_S32x24576_1_0_0_1_n_n_wf : DotDims.WF S32x1024 S1024x24576 S32x24576 [1] [0] [0] [1] [] []
  gather_S32x8192x3_S8192x16x1_S32x8192x16x3_03_1_n_n_1_2_3213_wf : GatherDims.WF S32x8192x3 S8192x16x1 S32x8192x16x3 [0, 3] [1] [] [1] [] 2 ![32, 1, 3]
  scatter_S32x8192x3_S8192x16x1_S32x8192x16x3_03_1_1_2_wf : ScatterDims.WF S32x8192x3 S8192x16x1 S32x8192x16x3 [0, 3] [1] [1] 2
  dot_S32x24576_S1024x24576_S32x1024_1_1_0_0_n_n_wf : DotDims.WF S32x24576 S1024x24576 S32x1024 [1] [1] [0] [0] [] []
  dot_S32x1024_S256x1024_S32x256_1_1_0_0_n_n_wf : DotDims.WF S32x1024 S256x1024 S32x256 [1] [1] [0] [0] [] []

variable [Facts₀]

def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S32x1024_S1024x24576_S32x24576_1_0_0_1_n_n : DotDims S32x1024 S1024x24576 S32x24576 where
  lhsContracting := [1]
  rhsContracting := [0]
  lhsNonContracting := [0]
  rhsNonContracting := [1]
  lhsBatch := []
  rhsBatch := []
  wf := dot_S32x1024_S1024x24576_S32x24576_1_0_0_1_n_n_wf
def gather_S32x8192x3_S8192x16x1_S32x8192x16x3_03_1_n_n_1_2_3213 : GatherDims S32x8192x3 S8192x16x1 S32x8192x16x3 where
  offsetDims := [0, 3]
  collapsedSliceDims := [1]
  operandBatchingDims := []
  startIndicesBatchingDims := []
  startIndexMap := [1]
  indexVectorDim := 2
  sliceSizes := ![32, 1, 3]
  wf := gather_S32x8192x3_S8192x16x1_S32x8192x16x3_03_1_n_n_1_2_3213_wf
def scatter_S32x8192x3_S8192x16x1_S32x8192x16x3_03_1_1_2 : ScatterDims S32x8192x3 S8192x16x1 S32x8192x16x3 where
  updateWindowDims := [0, 3]
  insertedWindowDims := [1]
  scatterDimsToOperandDims := [1]
  indexVectorDim := 2
  wf := scatter_S32x8192x3_S8192x16x1_S32x8192x16x3_03_1_1_2_wf
def dot_S32x24576_S1024x24576_S32x1024_1_1_0_0_n_n : DotDims S32x24576 S1024x24576 S32x1024 where
  lhsContracting := [1]
  rhsContracting := [1]
  lhsNonContracting := [0]
  rhsNonContracting := [0]
  lhsBatch := []
  rhsBatch := []
  wf := dot_S32x24576_S1024x24576_S32x1024_1_1_0_0_n_n_wf
def dot_S32x1024_S256x1024_S32x256_1_1_0_0_n_n : DotDims S32x1024 S256x1024 S32x256 where
  lhsContracting := [1]
  rhsContracting := [1]
  lhsNonContracting := [0]
  rhsNonContracting := [0]
  lhsBatch := []
  rhsBatch := []
  wf := dot_S32x1024_S256x1024_S32x256_1_1_0_0_n_n_wf

class Facts : Prop extends Facts₀ where

variable [Facts]
-- ==== Proof.RunNamed.lean ====
/-
  The run of the idealized kernel's @main with BOTH results named. The program is four pipelined regions among
  stretches of host operations; the buffer contents at the last segment boundary are the fold `Gen.W8` of those
  stretches and regions from the launch memory. Every weakly fair execution terminates, nothing faulting, and the
  final memory holds, at each unscoped buffer, what that fold holds: in particular the mean energy (result 0) and the
  code gradient (result 1) are `W8` at their buffers, and the nine arguments are as launched.
-/
import proofs.«115412_j46059229282940_2_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-region launch theorem's implicit arguments are found by unifying its conclusion with this one, which
-- takes unfolding plain definitions in a metavariable's type
set_option backward.isDefEq.respectTransparency.types false in
/-- Every weakly fair execution of @main ends with the two results at the last boundary's contents and the
    arguments unchanged. -/
theorem run_named : θ_run defs (onTc (τ := τ) (main (F := F))) ⟨m, fun _ => 0, ρ⟩ (fun r => ∀ c : Dev nD,
      r.2.mem ((c.tc : Thread nD τ).loc main_v0_0) = W8 m ρ c (Proc.devRef .tc main_v0_0)
      ∧ r.2.mem ((c.tc : Thread nD τ).loc main_v0_1) = W8 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.RunVal

end
-- ==== Proof.Walk.lean ====
/-
  What the buffers hold at the boundaries between @main's segments. The program alternates stretches of host
  operations with four pipelined regions; a buffer that a stretch does not write and a region does not take as an
  output keeps its contents across that segment (a region's INPUT array is read, never written). Walking back
  through the segments, each argument array read by a later region is still the launch contents, the activations
  read by regions 1 and 3 are what region 0 left, and the mean energy at the end is what the third stretch computed.
-/
import proofs.«115412_j46059229282940_2_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The code, as region 0 finds it, is the launch contents. -/
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The first weight matrix, as region 0 finds it, is the launch contents. -/
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The activations, as region 1 finds them, are what region 0 left. -/
theorem W3_v1 (c : Dev nD) : W3 m ρ c (Proc.devRef .tc main_call0_v1) = W2 m ρ c (Proc.devRef .tc main_call0_v1) :=
  calc W3 m ρ c (Proc.devRef .tc main_call0_v1)
    _ = W2 m ρ c (Proc.devRef .tc main_call0_v1) := StableHlo.after_of_forall_not_mem (b := Proc.devRef .tc main_call0_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second weight matrix, as region 1 finds it, is the launch contents. -/
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The second bias after region 0 is the launch contents. -/
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument 0 after region 1 is the launch contents. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 after region 1 is the launch contents. -/
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 after region 1 is the launch contents. -/
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 after region 1 is the launch contents. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The second weight matrix, as region 2 finds it, is the launch contents. -/
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := (W4_arr m ρ c 1).trans (((dat1 (V3 m ρ) c).arrAt_in 1 rfl _).trans (A_eq1 (V3 m ρ) c 1))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The first weight matrix, as region 3 finds it, is the launch contents. -/
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The activations, as region 3 finds them, are what region 0 left. -/
theorem W7_v1 (c : Dev nD) : W7 m ρ c (Proc.devRef .tc main_call0_v1) = W2 m ρ c (Proc.devRef .tc main_call0_v1) :=
  calc W7 m ρ c (Proc.devRef .tc main_call0_v1)
    _ = W6 m ρ c (Proc.devRef .tc main_call0_v1) := StableHlo.after_of_forall_not_mem (b := Proc.devRef .tc main_call0_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_call0_v1) := W6_of_ne m ρ c main_call0_v1 (by decide)
    _ = W4 m ρ c (Proc.devRef .tc main_call0_v1) := StableHlo.after_of_forall_not_mem (b := Proc.devRef .tc main_call0_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_call0_v1) := (W4_arr m ρ c 0).trans (((dat1 (V3 m ρ) c).arrAt_in 0 rfl _).trans (A_eq1 (V3 m ρ) c 0))
    _ = W2 m ρ c (Proc.devRef .tc main_call0_v1) := StableHlo.after_of_forall_not_mem (b := Proc.devRef .tc main_call0_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The mean energy at the end is what the third host stretch computed. -/
theorem W8_v0_0 (c : Dev nD) : W8 m ρ c (Proc.devRef .tc main_v0_0) = W5 m ρ c (Proc.devRef .tc main_v0_0) :=
  calc W8 m ρ c (Proc.devRef .tc main_v0_0)
    _ = W7 m ρ c (Proc.devRef .tc main_v0_0) := W8_of_ne m ρ c main_v0_0 (by decide)
    _ = W6 m ρ c (Proc.devRef .tc main_v0_0) := StableHlo.after_of_forall_not_mem (b := Proc.devRef .tc main_v0_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v0_0) := W6_of_ne m ρ c main_v0_0 (by decide)

end Cert.KernelIdeal.Walk

end
-- ==== Proof.LibSoftmaxUnit.lean ====
/-
  Extended-real arithmetic for a row softmax that is averaged over the very axis it normalizes.

  At the exact extended reals a softmax row `e_k / Σ_j e_j` sums to one as soon as every `e_k` is a positive
  real, whatever the scores were; its mean over `n` entries is then `1/n`, a constant row; and the softmax of a
  constant row of `n` entries is `1/n` again. The lemmas below are the pieces of that argument, stated for the
  operations as they read at the exact instance: `Ideal.div`, `Ideal.exp`, `Ideal.sqrt`, `max`, finite sums with an
  initial value, and a maximum folded from `⊥`.
-/
import Idealize.ShloMosaic.PureOps.Ideal
import Idealize.ShloMosaic.PureOps.Ideal.Laws

noncomputable section

namespace Idealize.ShloMosaic.SoftmaxUnit

open Idealize.ShloMosaic

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsReal.coe (r : ℝ) : IsReal (r : EReal) := ⟨r, rfl⟩

theorem IsPos.isReal {x : EReal} (h : IsPos x) : IsReal x := by
  obtain ⟨r, -, rfl⟩ := h; exact ⟨r, rfl⟩

theorem IsReal.zero : IsReal 0 := ⟨0, by norm_cast⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type*} (s : Finset ι) (g : ι → EReal) (h : ∀ k, IsReal (g k)) : IsReal (∑ k ∈ s, g k) := by
  choose f hf using h
  exact ⟨∑ k ∈ s, f k, by rw [← coe_sum]; exact Finset.sum_congr rfl fun k _ => hf k⟩

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

theorem IsReal.div_pos {x y : EReal} (hx : IsReal x) (hy : IsPos y) : IsReal (Ideal.div x y) := by
  obtain ⟨a, rfl⟩ := hx; obtain ⟨b, hb, rfl⟩ := hy
  exact ⟨a / b, div_coe_coe a b hb.ne'⟩

/-- A Euclidean norm floored at a positive real: `max (√s) e` is a positive real for every real `s` — below zero the
    root is the junk `⊥` and the floor is the value. -/
theorem IsPos.max_sqrt {s e : EReal} (hs : IsReal s) (he : IsPos e) : IsPos (max (Ideal.sqrt s) e) := by
  obtain ⟨r, rfl⟩ := hs; obtain ⟨q, hq, rfl⟩ := he
  rw [Ideal.sqrt_coe]
  split_ifs with h
  · exact ⟨q, hq, max_eq_right bot_le⟩
  · exact ⟨max (Real.sqrt r) q, lt_max_of_lt_right hq, EReal.coe_strictMono.monotone.map_max.symm⟩

/-- The exponential of a real number is a positive real. -/
theorem IsPos.exp {x : EReal} (hx : IsReal x) : IsPos (Ideal.exp x) := by
  obtain ⟨r, rfl⟩ := hx; exact ⟨Real.exp r, Real.exp_pos r, Ideal.exp_coe r⟩

/-- A maximum folded from `⊥` is the supremum. -/
theorem fold_max_bot {ι : Type*} (s : Finset ι) (g : ι → EReal) : s.fold max ⊥ g = s.sup g := rfl

/-- The maximum, folded from `⊥`, of a nonempty family of reals is a real. -/
theorem IsReal.fold_max {ι : Type*} (s : Finset ι) (hs : s.Nonempty) (g : ι → EReal) (h : ∀ k, IsReal (g k)) :
    IsReal (s.fold max ⊥ g) := by
  rw [fold_max_bot]
  obtain ⟨i, -, e⟩ := Finset.exists_mem_eq_sup s hs g
  rw [e]; exact h i

/-- The maximum, folded from `⊥`, of a nonempty constant family is the constant. -/
theorem fold_max_const {ι : Type*} (s : Finset ι) (hs : s.Nonempty) (c : EReal) : s.fold max ⊥ (fun _ => c) = c := by
  rw [fold_max_bot]; exact Finset.sup_const hs c

/-- A ROW OF A SOFTMAX SUMS TO ONE: positive reals `p k`, each divided by their sum, add up to `1` (both sums taken from
    the initial value `0`, as a host reduction states them). -/
theorem sum_div_total {ι : Type*} [Fintype ι] [Nonempty ι] (p : ι → EReal) (hp : ∀ k, IsPos (p k)) :
    (0 : EReal) + ∑ k, Ideal.div (p k) ((0 : EReal) + ∑ j, p j) = 1 := by
  choose f hf0 hf using hp
  have hS : 0 < ∑ j, f j := Finset.sum_pos (fun j _ => hf0 j) Finset.univ_nonempty
  have e1 : (0 : EReal) + ∑ j, p j = ((∑ j, f j : ℝ) : EReal) := by
    rw [zero_add, ← coe_sum]; exact Finset.sum_congr rfl fun k _ => hf k
  rw [e1, zero_add]
  have e2 : ∀ k, Ideal.div (p k) ((∑ j, f j : ℝ) : EReal) = ((f k / ∑ j, f j : ℝ) : EReal) := fun k => by
    rw [hf k]; exact div_coe_coe _ _ hS.ne'
  rw [Finset.sum_congr rfl fun k _ => e2 k, coe_sum, ← Finset.sum_div, div_self hS.ne']
  norm_cast

/-- THE SOFTMAX OF A CONSTANT ROW is uniform: with every score the real `c` and the row's maximum `c` too, each entry
    `exp (c - c)` divided by the sum of the `n` of them is `1/n`. -/
theorem softmax_const (n : ℕ) (hn : 0 < n) (c : ℝ) :
    Ideal.div (Ideal.exp ((c : EReal) - (c : EReal))) ((0 : EReal) + ∑ _k : Fin n, Ideal.exp ((c : EReal) - (c : EReal)))
      = ((1 / (n : ℝ) : ℝ) : EReal) := by
  have e : Ideal.exp ((c : EReal) - (c : EReal)) = ((1 : ℝ) : EReal) := by
    rw [← EReal.coe_sub, sub_self, Ideal.exp_coe, Real.exp_zero]
  rw [e, zero_add, coe_sum, Finset.sum_const, Finset.card_univ, Fintype.card_fin, nsmul_eq_mul, mul_one]
  exact div_coe_coe 1 (n : ℝ) (by positivity)

end Idealize.ShloMosaic.SoftmaxUnit

end
-- ==== Proof.DiffLaw.lean ====
/-
  Two laws that join the kernel's arithmetic to the reference's, on the extended reals.

  * The edge-vector deviation. The reference forms (y_i - y_j) - (x_i - x_j); the kernel forms d_i - d_j with
    d = y - x gathered once. On REAL entries the two agree (they differ only where an infinity meets its opposite),
    and since a gather, like a broadcast, only re-reads its operand at computed positions, the law lifts to the
    arrays: the difference of a broadcast and a gather of (y - x) is the difference of the two differences.
  * The ReLU mask. The kernel multiplies the incoming gradient by the indicator of max(pre, 0) > 0; the reference
    selects the gradient where pre > 0 and zero elsewhere. These agree for EVERY extended-real gradient, because
    max(pre, 0) > 0 exactly when pre > 0, and g · 1 = g, g · 0 = 0.
-/
import proofs.«115412_j46059229282940_2_alg».proof.Proof.LibSoftmaxUnit
import Idealize.ShloMosaic.PureOps.Ideal
import Idealize.ShloMosaic.PureOps.ShapeOps

noncomputable section

namespace Cert.DiffLaw

open Idealize.ShloMosaic Idealize.ShloMosaic.SoftmaxUnit

/-- On reals, (a - x) - (b - y) = (a - b) - (x - y). -/
theorem sub_sub_sub_comm_real {a x b y : EReal} (ha : IsReal a) (hx : IsReal x) (hb : IsReal b) (hy : IsReal y) :
    (a - x) - (b - y) = (a - b) - (x - y) := by
  obtain ⟨a, rfl⟩ := ha; obtain ⟨x, rfl⟩ := hx; obtain ⟨b, rfl⟩ := hb; obtain ⟨y, rfl⟩ := hy
  norm_cast
  ring

/-- The maximum of a real and zero is real. -/
theorem IsReal.max_zero {a : EReal} (ha : IsReal a) : IsReal (max a 0) := by
  obtain ⟨a, rfl⟩ := ha
  exact ⟨max a 0, by norm_cast⟩

/-- The gradient through the rectifier: masking by the activation's sign is selecting by the pre-activation's. -/
theorem mask_mul (g pre : EReal) :
    g * (if (0 : EReal) < max pre 0 then (1 : EReal) else 0) = if (0 : EReal) < pre then g else 0 := by
  by_cases h : (0 : EReal) < pre
  · rw [if_pos h, if_pos (lt_max_of_lt_left h), mul_one]
  · have h' : ¬ (0 : EReal) < max pre 0 := by
      rw [max_eq_right (not_lt.mp h)]; exact lt_irrefl _
    rw [if_neg h, if_neg h', mul_zero]

variable {s s1 t si : Shape} {w : Nat}

/-- Gathering and broadcasting the difference y - x once, and subtracting, is the difference of the two
    broadcast-minus-gather differences, when y and x are real everywhere. -/
theorem diff_eq (d1 : Fin s.rank → Fin s1.rank) (h1 : s.BroadcastsInDim s1 d1)
    (d2 : Fin s1.rank → Fin t.rank) (h2 : s1.BroadcastsInDim t d2)
    (g : GatherDims s si t) (idx : IVec si w) (y x : FVec Ideal s .f32)
    (hy : ∀ i, IsReal (y i)) (hx : ∀ i, IsReal (x i)) :
    subf (broadcastInDim t d2 h2 (broadcastInDim s1 d1 h1 (subf y x))) (Host.gather g (subf y x) idx)
      = subf (subf (broadcastInDim t d2 h2 (broadcastInDim s1 d1 h1 y)) (Host.gather g y idx))
          (subf (broadcastInDim t d2 h2 (broadcastInDim s1 d1 h1 x)) (Host.gather g x idx)) := by
  funext j
  simp only [subf, broadcastInDim, Host.gather, Ideal.subf_def]
  exact sub_sub_sub_comm_real (hy _) (hx _) (hy _) (hx _)

end Cert.DiffLaw

end
-- ==== Proof.Host2.lean ====
/-
  The long stretch of host operations between the forward decoder and the backward one, read as the reference's
  own stages. From the flat reconstruction y (region 1's output) and the arguments, the kernel's @main forms
  d = y - x once, gathers it at the neighbour indices, and takes diff = d_i - d_j; the reference gathers y and x
  separately and takes (y_i - y_j) - (x_i - x_j). On real y and x these are one array (the difference law), and every
  later operation — the weighted, masked sum of squares, the two means, and on the way back the cotangent
  2·diff·(weight·mask/(16·8192)), its sum over neighbours, the scatter-add of its negation at the neighbour indices
  and the re-laying as [32, 24576] — is the same operation on both sides. So the mean energy is the reference's
  first result and the flattened cotangent is the reference's left operand of its backward contraction.
-/
import proofs.«115412_j46059229282940_2_alg».proof.Proof.Gen.KernelIdeal.Frame
import proofs.«115412_j46059229282940_2_alg».proof.Proof.Gen.ReferenceIdeal.Read
import proofs.«115412_j46059229282940_2_alg».proof.Proof.DiffLaw
import Idealize.ShloMosaic.Lib.StableHlo.Run

set_option maxRecDepth 16384

noncomputable section

namespace Cert.Host2

open Idealize.ShloMosaic Idealize.ShloMosaic.StableHlo Idealize.ShloMosaic.SoftmaxUnit

variable (W : Valuation Cert.KernelIdeal.τ Cert.KernelIdeal.sig (Elt Ideal))
  (x0 : (⟨Cert.ReferenceIdeal.S32x8192x3, .f32⟩ : BufTy).Contents (Elt Ideal))
  (x1 : (⟨Cert.ReferenceIdeal.S8192x16, .i32⟩ : BufTy).Contents (Elt Ideal))
  (x2 : (⟨Cert.ReferenceIdeal.S8192, .i32⟩ : BufTy).Contents (Elt Ideal))
  (x3 : (⟨Cert.ReferenceIdeal.S8192x16, .f32⟩ : BufTy).Contents (Elt Ideal))
  (x4 : (⟨Cert.ReferenceIdeal.S32x256, .f32⟩ : BufTy).Contents (Elt Ideal))
  (x5 : (⟨Cert.ReferenceIdeal.S256x1024, .f32⟩ : BufTy).Contents (Elt Ideal))
  (x6 : (⟨Cert.ReferenceIdeal.S1024, .f32⟩ : BufTy).Contents (Elt Ideal))
  (x7 : (⟨Cert.ReferenceIdeal.S1024x24576, .f32⟩ : BufTy).Contents (Elt Ideal))
  (x8 : (⟨Cert.ReferenceIdeal.S24576, .f32⟩ : BufTy).Contents (Elt Ideal))

set_option maxHeartbeats 4000000 in
/-- The mean energy the third stretch computes is the reference's. -/
theorem host2_energy
    (h3 : W (Proc.devRef .tc Cert.KernelIdeal.main_call0_v3) = Cert.ReferenceIdeal.Read.val_main_v11 (F := Ideal) x4 x5 x6 x7 x8)
    (h0 : W (Proc.devRef .tc Cert.KernelIdeal.main_arg0) = x0)
    (h1 : W (Proc.devRef .tc Cert.KernelIdeal.main_arg1) = x1)
    (h2 : W (Proc.devRef .tc Cert.KernelIdeal.main_arg2) = x2)
    (ha3 : W (Proc.devRef .tc Cert.KernelIdeal.main_arg3) = x3)
    (hy : ∀ i, IsReal (Cert.ReferenceIdeal.Read.val_main_v12 (F := Ideal) x4 x5 x6 x7 x8 i)) (hx : ∀ i, IsReal (x0 i)) :
    StableHlo.after (Cert.KernelIdeal.Gen.hostOps2 (F := Ideal)) W (Proc.devRef .tc Cert.KernelIdeal.main_v0_0)
      = Cert.ReferenceIdeal.Read.val_main_v54 (F := Ideal) x0 x1 x2 x3 x4 x5 x6 x7 x8 := by
  after_results_simp
  simp only [cast_eq]
  rw [h3, h0, h1, h2, ha3]
  rw [Cert.DiffLaw.diff_eq]
  · rfl
  · exact hy
  · exact hx

set_option maxHeartbeats 4000000 in
/-- The flattened cotangent of the reconstruction the third stretch computes is the reference's. -/
theorem host2_dflat
    (h3 : W (Proc.devRef .tc Cert.KernelIdeal.main_call0_v3) = Cert.ReferenceIdeal.Read.val_main_v11 (F := Ideal) x4 x5 x6 x7 x8)
    (h0 : W (Proc.devRef .tc Cert.KernelIdeal.main_arg0) = x0)
    (h1 : W (Proc.devRef .tc Cert.KernelIdeal.main_arg1) = x1)
    (h2 : W (Proc.devRef .tc Cert.KernelIdeal.main_arg2) = x2)
    (ha3 : W (Proc.devRef .tc Cert.KernelIdeal.main_arg3) = x3)
    (hy : ∀ i, IsReal (Cert.ReferenceIdeal.Read.val_main_v12 (F := Ideal) x4 x5 x6 x7 x8 i)) (hx : ∀ i, IsReal (x0 i)) :
    StableHlo.after (Cert.KernelIdeal.Gen.hostOps2 (F := Ideal)) W (Proc.devRef .tc Cert.KernelIdeal.main_call0_v58)
      = Cert.ReferenceIdeal.Read.val_main_v76 (F := Ideal) x0 x1 x2 x3 x4 x5 x6 x7 x8 := by
  after_results_simp
  simp only [cast_eq]
  rw [h3, h0, h1, h2, ha3]
  rw [Cert.DiffLaw.diff_eq]
  · rfl
  · exact hy
  · exact hx

end Cert.Host2
end
-- ==== Proof.RefReal.lean ====
/-
  The reference's decoder stages on REAL inputs. With every entry of the code, the two weight matrices and the two
  biases a real number, the pre-activation (a finite sum of products plus a bias entry), the activation (its maximum
  with zero) and the reconstruction (again a finite sum of products plus a bias entry, re-laid as [32, 8192, 3]) are
  real at every index: sums, products and the maximum with zero of reals are real.
-/
import proofs.«115412_j46059229282940_2_alg».proof.Proof.Gen.ReferenceIdeal.Read
import proofs.«115412_j46059229282940_2_alg».proof.Proof.DiffLaw

noncomputable section

namespace Cert.RefReal

open Cert.ReferenceIdeal Cert.ReferenceIdeal.Read Idealize.ShloMosaic Idealize.ShloMosaic.SoftmaxUnit

variable (x4 : (⟨S32x256, .f32⟩ : BufTy).Contents (Elt Ideal)) (x5 : (⟨S256x1024, .f32⟩ : BufTy).Contents (Elt Ideal))
  (x6 : (⟨S1024, .f32⟩ : BufTy).Contents (Elt Ideal)) (x7 : (⟨S1024x24576, .f32⟩ : BufTy).Contents (Elt Ideal))
  (x8 : (⟨S24576, .f32⟩ : BufTy).Contents (Elt Ideal))

/-- The pre-activation code·W1 + b1 is real at every entry. -/
theorem pre_real (h4 : ∀ i, IsReal (x4 i)) (h5 : ∀ i, IsReal (x5 i)) (h6 : ∀ i, IsReal (x6 i)) (i : S32x1024.Idx) :
    IsReal (val_main_v3 (F := Ideal) x4 x5 x6 i) := by
  rw [val_main_v3_apply, val_main_v0_apply, val_main_v2_apply, val_main_v1_apply]
  exact IsReal.add (IsReal.sum _ _ fun k => (h4 _).mul (h5 _)) (h6 _)

/-- The activation is the maximum of the pre-activation and zero. -/
theorem act_eq_max (i : S32x1024.Idx) :
    val_main_v4 (F := Ideal) x4 x5 x6 i = max (val_main_v3 (F := Ideal) x4 x5 x6 i) 0 := by
  rw [val_main_v4_apply, val_main_call0_v0_apply, val_main_call0_cst_apply]
  show max _ (Ideal.ofBits .f32 0x00000000#32) = _
  rw [Ideal.ofBits_zero_f32]

/-- The activation is real at every entry. -/
theorem act_real (h4 : ∀ i, IsReal (x4 i)) (h5 : ∀ i, IsReal (x5 i)) (h6 : ∀ i, IsReal (x6 i)) (i : S32x1024.Idx) :
    IsReal (val_main_v4 (F := Ideal) x4 x5 x6 i) := by
  rw [act_eq_max]
  exact Cert.DiffLaw.IsReal.max_zero (pre_real x4 x5 x6 h4 h5 h6 i)

/-- The flat reconstruction h·W2 + b2 is real at every entry. -/
theorem flat_real (h4 : ∀ i, IsReal (x4 i)) (h5 : ∀ i, IsReal (x5 i)) (h6 : ∀ i, IsReal (x6 i))
    (h7 : ∀ i, IsReal (x7 i)) (h8 : ∀ i, IsReal (x8 i)) (i : S32x24576.Idx) :
    IsReal (val_main_v11 (F := Ideal) x4 x5 x6 x7 x8 i) := by
  rw [val_main_v11_apply, val_main_v8_apply, val_main_v10_apply, val_main_v9_apply]
  exact IsReal.add (IsReal.sum _ _ fun k => (act_real x4 x5 x6 h4 h5 h6 _).mul (h7 _)) (h8 _)

/-- The reconstruction, re-laid as [32, 8192, 3], is real at every entry. -/
theorem recon_real (h4 : ∀ i, IsReal (x4 i)) (h5 : ∀ i, IsReal (x5 i)) (h6 : ∀ i, IsReal (x6 i))
    (h7 : ∀ i, IsReal (x7 i)) (h8 : ∀ i, IsReal (x8 i)) (i : S32x8192x3.Idx) :
    IsReal (val_main_v12 (F := Ideal) x4 x5 x6 x7 x8 i) := by
  rw [val_main_v12_apply]
  exact flat_real x4 x5 x6 x7 x8 h4 h5 h6 h7 h8 _

end Cert.RefReal

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.RegionVal0.lean ====
/-
  Region 0 (the first layer, forward): the output array after the region, read at an index.

  The region's grid is a single point and every window's block is its whole array, so the body's one store of its
  payload is the whole output: entry (p, q) is max (sum over k of x[p, k] · w[k, q] + b[0, q], 0).
-/
import proofs.«115412_j46059229282940_2_alg».proof.Proof.Gen.KernelIdeal.Frame
import proofs.«115412_j46059229282940_2_alg».proof.Proof.LibPlainContract
import proofs.«115412_j46059229282940_2_alg».proof.Proof.LibLreluRows
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The payload at entry (p, q): the product's contraction sum plus the bias row, clamped below at zero. -/
theorem pay0_apply (x0 : Vec Ideal S32x256 .f32) (x1 : Vec Ideal S256x1024 .f32) (x2 : Vec Ideal S1x1024 .f32)
    (p : Fin 32) (q : Fin 1024) :
    Gen.k0_pay1 (F := Ideal) x0 x1 x2 (ix2 p q)
      = max ((∑ k : Fin 256, x0 (ix2 p k) * x1 (ix2 k q)) + x2 (ix2 (0 : Fin 1) q)) 0 := by
  have hm : matmul dot_S32x256_S256x1024_S32x1024_1_0_0_1_n_n none (truncf .bf16 x0 bitsLt_bf16_f32)
      (truncf .bf16 x1 bitsLt_bf16_f32) (constant (F := Ideal) S32x1024 .f32 0x00000000#32) (ix2 p q)
        = ∑ k : Fin 256, x0 (ix2 p k) * x1 (ix2 k q) :=
    Cert.LibPlainContract.matmul_plain_apply 32 256 1024 none
      (truncf .bf16 x0 bitsLt_bf16_f32) (truncf .bf16 x1 bitsLt_bf16_f32) p q
  have hb : broadcastTo S32x1024 (shapeCast S1x1024 x2 shapeCasts_S1x1024_S1x1024) broadcasts_S1x1024_S32x1024 (ix2 p q)
        = x2 (ix2 (0 : Fin 1) q) :=
    Cert.LibLreluRows.rowDown_apply shapeCasts_S1x1024_S1x1024 broadcasts_S1x1024_S32x1024 x2 p q
  have hz : (Scalar.ofBits .f32 0x00000000#32 : Ideal .f32) = 0 := Ideal.ofBits_zero_f32
  unfold Gen.k0_pay1
  exact congrArg₂ max (congrArg₂ (· + ·) hm hb) hz

theorem zeros2_r0 : (![0, 0] : Fin 2 → Nat) = fun _ => 0 := funext fun a => by fin_cases a <;> rfl

/-- The array the region leaves, entry by entry. -/
def G0 (a : S32x256.Idx → EReal) (w : S256x1024.Idx → EReal) (b : S1x1024.Idx → EReal) : S32x1024.Idx → EReal :=
  fun i => max ((∑ k : Fin 256, a (ix2 (i 0) k) * w (ix2 k (i 1))) + b (ix2 (0 : Fin 1) (i 1))) 0

/-- Every window's block index is zero on both axes at every point of the grid. -/
theorem idx_zero0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Window 0's block is the whole array. -/
theorem blk0_0 (c : Dev nD) (t : Fin cfg0.N) : (Gen.iblk0 V c 0 t : Vec Ideal S32x256 .f32) = V c main_arg4 := by
  obtain ⟨e0, e1, -⟩ := idx_zero0 t
  funext y
  show V c main_arg4 (((cfg0.win 0).blk t).view.emb y) = V c main_arg4 y
  refine congrArg (V c main_arg4) (funext fun a => Fin.ext ?_)
  match a with
  | ⟨0, _⟩ => show win0_0.index t (0 : Fin 2) * 32 + 1 * (y 0).val = (y 0).val; omega
  | ⟨1, _⟩ => show win0_0.index t (1 : Fin 2) * 256 + 1 * (y 1).val = (y 1).val; omega

/-- Window 1's block is the whole array. -/
theorem blk0_1 (c : Dev nD) (t : Fin cfg0.N) : (Gen.iblk0 V c 1 t : Vec Ideal S256x1024 .f32) = V c main_arg5 := by
  obtain ⟨-, -, e0, e1, -⟩ := idx_zero0 t
  funext y
  show V c main_arg5 (((cfg0.win 1).blk t).view.emb y) = V c main_arg5 y
  refine congrArg (V c main_arg5) (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega

/-- Window 2's block is the whole array. -/
theorem blk0_2 (c : Dev nD) (t : Fin cfg0.N) : (Gen.iblk0 V c 2 t : Vec Ideal S1x1024 .f32) = V c main_call0_v0 := by
  obtain ⟨-, -, -, -, e0, e1, -⟩ := idx_zero0 t
  funext y
  show V c main_call0_v0 (((cfg0.win 2).blk t).view.emb y) = V c main_call0_v0 y
  refine congrArg (V c main_call0_v0) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- What the one point writes back is the block of `G0` of the arrays the region finds. -/
theorem flushed0_eq (c : Dev nD) (t : Fin cfg0.N) :
    (Gen.dat0 (F := Ideal) V c).flushed 3 t
      = ((cfg0.win 3).blk t).view.read (Elt Ideal) (G0 (V c main_arg4) (V c main_arg5) (V c main_call0_v0)) := by
  show (cfg0.win 3).cut (grid0.coords t) ((Gen.dat0 V c).after 3 t) = _
  rw [Gen.after0_3]
  unfold Gen.out0_3
  rw [View.canon_unit_zero zeros2_r0]
  simp only [View.ld_unit_zero (S := S32x256) zeros2_r0, View.ld_unit_zero (S := S256x1024) zeros2_r0, View.ld_unit_zero (S := S1x1024) zeros2_r0]
  rw [blk0_0 V c t, blk0_1 V c t, blk0_2 V c t]
  refine funext fun (j : S32x1024.Idx) => ?_
  obtain ⟨p, q, rfl⟩ : ∃ (p : Fin 32) (q : Fin 1024), j = ix2 p q := ⟨j 0, j 1, eq_ix2 j⟩
  obtain ⟨-, -, -, -, -, -, e6, e7⟩ := idx_zero0 t
  show Gen.k0_pay1 (F := Ideal) (V c main_arg4) (V c main_arg5) (V c main_call0_v0) (ix2 p q)
    = G0 (V c main_arg4) (V c main_arg5) (V c main_call0_v0) (((cfg0.win 3).blk t).view.emb (ix2 p q))
  have hemb : (((cfg0.win 3).blk t).view.emb (ix2 p q) : S32x1024.Idx) = ix2 p q := by
    funext a; apply Fin.ext
    match a with
    | ⟨0, _⟩ => show win0_3.index t (0 : Fin 2) * 32 + 1 * p.val = p.val; omega
    | ⟨1, _⟩ => show win0_3.index t (1 : Fin 2) * 1024 + 1 * q.val = q.val; omega
  rw [hemb]
  exact pay0_apply (V c main_arg4) (V c main_arg5) (V c main_call0_v0) p q

/-- An index of the array is in the point's block iff each coordinate is in the block's range on its axis. -/
theorem mem_blk0 (t : Fin cfg0.N) (i : S32x1024.Idx) :
    i ∈ ((cfg0.win 3).blk t).view.set ↔ ∀ a : Fin 2, win0_3.index t a * S32x1024.size a ≤ (i a).val ∧ (i a).val < win0_3.index t a * S32x1024.size a + S32x1024.size a := by
  show i ∈ ((View.whole main_call0_v1).slice (win0_3.rect t)).set ↔ _
  rw [View.set_slice_whole, Rect.mem_set_unit]
  exact Iff.rfl

/-- The one point's block covers the array. -/
theorem cover0 (i : S32x1024.Idx) :
    ∃ t : Fin cfg0.N, (cfg0.win 3).flush t = true ∧ i ∈ ((cfg0.win 3).blk t).view.set := by
  refine ⟨t0_0, flush0_3 t0_0, ?_⟩
  rw [mem_blk0]
  obtain ⟨-, -, -, -, -, -, e6, e7⟩ := idx_zero0 t0_0
  have h0 : (i 0).val < 32 := idx2_lt0 i
  have h1 : (i 1).val < 1024 := idx2_lt1 i
  intro a
  match a with
  | ⟨0, _⟩ => show win0_3.index t0_0 (0 : Fin 2) * 32 ≤ (i 0).val ∧ (i 0).val < win0_3.index t0_0 (0 : Fin 2) * 32 + 32; omega
  | ⟨1, _⟩ => show win0_3.index t0_0 (1 : Fin 2) * 1024 ≤ (i 1).val ∧ (i 1).val < win0_3.index t0_0 (1 : Fin 2) * 1024 + 1024; omega

/-- The output array after the region is `G0` of the arrays the region finds. -/
theorem arr0_eq (c : Dev nD) :
    (Gen.dat0 (F := Ideal) V c).arrAt 3 cfg0.N = G0 (V c main_arg4) (V c main_arg5) (V c main_call0_v0) :=
  (Gen.dat0 (F := Ideal) V c).arrAt_eq_of_cover 3 (G0 (V c main_arg4) (V c main_arg5) (V c main_call0_v0))
    (fun t _ => flushed0_eq V c t) cover0

/-- `G0` at entry (p, q). -/
theorem G0_apply (a : S32x256.Idx → EReal) (w : S256x1024.Idx → EReal) (b : S1x1024.Idx → EReal) (p : Fin 32) (q : Fin 1024) :
    G0 a w b (ix2 p q) = max ((∑ k : Fin 256, a (ix2 p k) * w (ix2 k q)) + b (ix2 (0 : Fin 1) q)) 0 := rfl

/-- The output array after the region, at entry (p, q). -/
theorem arr0 (c : Dev nD) (p : Fin 32) (q : Fin 1024) :
    (Gen.dat0 (F := Ideal) V c).arrAt 3 cfg0.N (ix2 p q)
      = G0 (V c main_arg4) (V c main_arg5) (V c main_call0_v0) (ix2 p q) :=
  congrFun (arr0_eq V c) (ix2 p q)

end Cert.KernelIdeal.RegionVal

end
-- ==== Proof.Bridge0.lean ====
/-
  Region 0 against the reference's first layer. The kernel's first region leaves, at entry (p, q), the maximum with
  zero of the sum over k of code[p,k]·W1[k,q] plus the bias row's entry q — the bias having been re-laid by the host
  as a one-row matrix. The reference computes the same sum as a dot_general, lays the bias along every row by two
  broadcasts, adds and takes the maximum with zero. Entry by entry they are one number.
-/
import proofs.«115412_j46059229282940_2_alg».proof.Proof.Gen.ReferenceIdeal.Read
import proofs.«115412_j46059229282940_2_alg».proof.Proof.RefReal
import proofs.«115412_j46059229282940_2_alg».proof.Proof.RegionVal0
import proofs.«115412_j46059229282940_2_alg».proof.Proof.LibPlainContract
import proofs.«115412_j46059229282940_2_alg».proof.Proof.LibLreluRows
import Idealize.ShloMosaic.Lib.ValueIdx

noncomputable section

namespace Cert.Bridge0

open Idealize.ShloMosaic Idealize.ShloMosaic.ValueIdx Idealize.ShloMosaic.SoftmaxUnit

variable
  (x0 : (⟨Cert.ReferenceIdeal.S32x8192x3, .f32⟩ : BufTy).Contents (Elt Ideal))
  (x1 : (⟨Cert.ReferenceIdeal.S8192x16, .i32⟩ : BufTy).Contents (Elt Ideal))
  (x2 : (⟨Cert.ReferenceIdeal.S8192, .i32⟩ : BufTy).Contents (Elt Ideal))
  (x3 : (⟨Cert.ReferenceIdeal.S8192x16, .f32⟩ : BufTy).Contents (Elt Ideal))
  (x4 : (⟨Cert.ReferenceIdeal.S32x256, .f32⟩ : BufTy).Contents (Elt Ideal))
  (x5 : (⟨Cert.ReferenceIdeal.S256x1024, .f32⟩ : BufTy).Contents (Elt Ideal))
  (x6 : (⟨Cert.ReferenceIdeal.S1024, .f32⟩ : BufTy).Contents (Elt Ideal))
  (x7 : (⟨Cert.ReferenceIdeal.S1024x24576, .f32⟩ : BufTy).Contents (Elt Ideal))
  (x8 : (⟨Cert.ReferenceIdeal.S24576, .f32⟩ : BufTy).Contents (Elt Ideal))

/-- The activations region 0 leaves are the reference's. -/
theorem act_bridge (h : Cert.KernelIdeal.S1024.ShapeCasts Cert.KernelIdeal.S1x1024) :
    Cert.KernelIdeal.RegionVal.G0 x4 x5 (shapeCast Cert.KernelIdeal.S1x1024 x6 h)
      = Cert.ReferenceIdeal.Read.val_main_v4 (F := Ideal) x4 x5 x6 := by
  funext i
  obtain ⟨p, q, rfl⟩ : ∃ (p : Fin 32) (q : Fin 1024), i = ix2 p q := ⟨i 0, i 1, eq_ix2 i⟩
  rw [Cert.KernelIdeal.RegionVal.G0_apply, Cert.RefReal.act_eq_max, Cert.ReferenceIdeal.Read.val_main_v3_apply]
  refine congrArg (fun t => max t (0 : EReal)) ?_
  refine congrArg₂ (fun a b : EReal => a + b) ?_ ?_
  · exact (Cert.LibPlainContract.dotGeneral_plain_apply 32 256 1024 none _ x4 x5 p q).symm
  · exact (Cert.LibLreluRows.rowCast_apply h x6 q).trans (Cert.LibLreluRows.biasRows_apply _ _ x6 p q).symm

end Cert.Bridge0

end
-- ==== Proof.RegionVal1.lean ====
/-
  Region 1 (the second layer, forward): the output array after the region, read at an index.

  The grid has 12 points; point t computes the 2048 output columns starting at 2048 · t from the whole first operand,
  the same column block of the second operand and of the bias row. Entry (p, j) of the output is
  sum over k of h[p, k] · w[k, j] + b[0, j]; column j is written by the point whose column block is j / 2048.
-/
import proofs.«115412_j46059229282940_2_alg».proof.Proof.Gen.KernelIdeal.Frame
import proofs.«115412_j46059229282940_2_alg».proof.Proof.LibPlainContract
import proofs.«115412_j46059229282940_2_alg».proof.Proof.LibLreluRows
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The payload at entry (p, y) of a block: the product's contraction sum plus the bias row. -/
theorem pay1_apply (x0 : Vec Ideal S32x1024 .f32) (x1 : Vec Ideal S1024x2048 .f32) (x2 : Vec Ideal S1x2048 .f32)
    (p : Fin 32) (y : Fin 2048) :
    Gen.k1_pay1 (F := Ideal) x0 x1 x2 (ix2 p y)
      = (∑ k : Fin 1024, x0 (ix2 p k) * x1 (ix2 k y)) + x2 (ix2 (0 : Fin 1) y) := by
  have hm : matmul dot_S32x1024_S1024x2048_S32x2048_1_0_0_1_n_n none
      (truncf .bf16 (shapeCast S32x1024 x0 shapeCasts_S32x1024_S32x1024) bitsLt_bf16_f32)
      (truncf .bf16 x1 bitsLt_bf16_f32) (constant (F := Ideal) S32x2048 .f32 0x00000000#32) (ix2 p y)
        = ∑ k : Fin 1024, x0 (ix2 p k) * x1 (ix2 k y) := by
    rw [shapeCast_self]
    exact Cert.LibPlainContract.matmul_plain_apply 32 1024 2048 none
      (truncf .bf16 x0 bitsLt_bf16_f32) (truncf .bf16 x1 bitsLt_bf16_f32) p y
  have hb : broadcastTo S32x2048 (shapeCast S1x2048 x2 shapeCasts_S1x2048_S1x2048) broadcasts_S1x2048_S32x2048 (ix2 p y)
        = x2 (ix2 (0 : Fin 1) y) :=
    Cert.LibLreluRows.rowDown_apply shapeCasts_S1x2048_S1x2048 broadcasts_S1x2048_S32x2048 x2 p y
  unfold Gen.k1_pay1
  exact congrArg₂ (· + ·) hm hb

theorem zeros2_r1 : (![0, 0] : Fin 2 → Nat) = fun _ => 0 := funext fun a => by fin_cases a <;> rfl

/-- The array the region leaves, entry by entry. -/
def G1 (a : S32x1024.Idx → EReal) (w : S1024x24576.Idx → EReal) (b : S1x24576.Idx → EReal) : S32x24576.Idx → EReal :=
  fun i => (∑ k : Fin 1024, a (ix2 (i 0) k) * w (ix2 k (i 1))) + b (ix2 (0 : Fin 1) (i 1))

/-- The printed index maps over the grid: the first operand's block never moves, every other window's row block
    is 0, and the column block of the second operand and of the bias row is the output's, which is below 12. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) = 0 ∧ win1_3.index t (1 : Fin 2) ≤ 11 :=
  (by decide +kernel : ∀ t : Fin grid1.N, _)

/-- Every column block is some point's. -/
theorem idx_onto1 : ∀ q1 : Fin 12, ∃ t : Fin cfg1.N, win1_3.index t = ![0, q1.val] :=
  (by decide +kernel : ∀ q1 : Fin 12, ∃ t : Fin grid1.N, win1_3.index t = ![0, q1.val])

/-- One entry of a block, over variables: if the loaded blocks read the arrays where the output entry's coordinates say,
    the payload's entry is `G1`'s. -/
theorem point1 (a : S32x1024.Idx → EReal) (w : S1024x24576.Idx → EReal) (b : S1x24576.Idx → EReal)
    (x0 : Vec Ideal S32x1024 .f32) (x1 : Vec Ideal S1024x2048 .f32) (x2 : Vec Ideal S1x2048 .f32)
    (p : Fin 32) (y : Fin 2048) (i : S32x24576.Idx)
    (h0 : ∀ k : Fin 1024, x0 (ix2 p k) = a (ix2 (i 0) k))
    (h1 : ∀ k : Fin 1024, x1 (ix2 k y) = w (ix2 k (i 1)))
    (h2 : x2 (ix2 (0 : Fin 1) y) = b (ix2 (0 : Fin 1) (i 1))) :
    Gen.k1_pay1 (F := Ideal) x0 x1 x2 (ix2 p y) = G1 a w b i := by
  refine (pay1_apply x0 x1 x2 p y).trans ?_
  show _ = (∑ k : Fin 1024, a (ix2 (i 0) k) * w (ix2 k (i 1))) + b (ix2 (0 : Fin 1) (i 1))
  rw [h2]
  refine congrArg₂ (· + ·) (Finset.sum_congr rfl fun k _ => ?_) rfl
  rw [h0 k, h1 k]

/-- What point t writes back is block t of `G1` of the arrays the region finds. -/
theorem flushed1_eq (c : Dev nD) (t : Fin cfg1.N) :
    (Gen.dat1 (F := Ideal) V c).flushed 3 t
      = ((cfg1.win 3).blk t).view.read (Elt Ideal) (G1 (V c main_call0_v1) (V c main_arg7) (V c main_call0_v2)) := by
  show (cfg1.win 3).cut (grid1.coords t) ((Gen.dat1 V c).after 3 t) = _
  rw [Gen.after1_3]
  unfold Gen.out1_3
  rw [View.canon_unit_zero zeros2_r1]
  simp only [View.ld_unit_zero (S := S32x1024) zeros2_r1, View.ld_unit_zero (S := S1024x2048) zeros2_r1, View.ld_unit_zero (S := S1x2048) zeros2_r1]
  refine funext fun (j : S32x2048.Idx) => ?_
  obtain ⟨p, y, rfl⟩ : ∃ (p : Fin 32) (y : Fin 2048), j = ix2 p y := ⟨j 0, j 1, eq_ix2 j⟩
  obtain ⟨e0, e1, e2, e3, e4, e5, e6, e7⟩ := idx_facts1 t
  show Gen.k1_pay1 (F := Ideal) (Gen.iblk1 V c 0 t) (Gen.iblk1 V c 1 t) (Gen.iblk1 V c 2 t) (ix2 p y)
    = G1 (V c main_call0_v1) (V c main_arg7) (V c main_call0_v2) (((cfg1.win 3).blk t).view.emb (ix2 p y))
  have hy : y.val < 2048 := y.isLt
  have h0 : ∀ k : Fin 1024, (((cfg1.win 0).blk t).view.emb (ix2 p k) : S32x1024.Idx)
      = ix2 ((((cfg1.win 3).blk t).view.emb (ix2 p y) : S32x24576.Idx) 0) k := fun k => by
    funext a; apply Fin.ext
    match a with
    | ⟨0, _⟩ => show win1_0.index t (0 : Fin 2) * 32 + 1 * p.val = win1_3.index t (0 : Fin 2) * 32 + 1 * p.val; omega
    | ⟨1, _⟩ => show win1_0.index t (1 : Fin 2) * 1024 + 1 * k.val = k.val; omega
  have h1 : ∀ k : Fin 1024, (((cfg1.win 1).blk t).view.emb (ix2 k y) : S1024x24576.Idx)
      = ix2 k ((((cfg1.win 3).blk t).view.emb (ix2 p y) : S32x24576.Idx) 1) := fun k => by
    funext a; apply Fin.ext
    match a with
    | ⟨0, _⟩ => show win1_1.index t (0 : Fin 2) * 1024 + 1 * k.val = k.val; omega
    | ⟨1, _⟩ => show win1_1.index t (1 : Fin 2) * 2048 + 1 * y.val = win1_3.index t (1 : Fin 2) * 2048 + 1 * y.val; omega
  have h2 : (((cfg1.win 2).blk t).view.emb (ix2 (0 : Fin 1) y) : S1x24576.Idx)
      = ix2 (0 : Fin 1) ((((cfg1.win 3).blk t).view.emb (ix2 p y) : S32x24576.Idx) 1) := by
    funext a; apply Fin.ext
    match a with
    | ⟨0, _⟩ => show win1_2.index t (0 : Fin 2) * 1 + 1 * 0 = 0; omega
    | ⟨1, _⟩ => show win1_2.index t (1 : Fin 2) * 2048 + 1 * y.val = win1_3.index t (1 : Fin 2) * 2048 + 1 * y.val; omega
  exact point1 (V c main_call0_v1) (V c main_arg7) (V c main_call0_v2)
    (Gen.iblk1 V c 0 t) (Gen.iblk1 V c 1 t) (Gen.iblk1 V c 2 t) p y (((cfg1.win 3).blk t).view.emb (ix2 p y))
    (fun k => congrArg (V c main_call0_v1) (h0 k)) (fun k => congrArg (V c main_arg7) (h1 k))
    (congrArg (V c main_call0_v2) h2)

/-- An index of the array is in point t's block iff each coordinate is in the block's range on its axis. -/
theorem mem_blk1 (t : Fin cfg1.N) (i : S32x24576.Idx) :
    i ∈ ((cfg1.win 3).blk t).view.set ↔ ∀ a : Fin 2, win1_3.index t a * S32x2048.size a ≤ (i a).val ∧ (i a).val < win1_3.index t a * S32x2048.size a + S32x2048.size a := by
  show i ∈ ((View.whole main_call0_v3).slice (win1_3.rect t)).set ↔ _
  rw [View.set_slice_whole, Rect.mem_set_unit]
  exact Iff.rfl

/-- The blocks cover the array: column j is in the block of the point whose column block is j / 2048. -/
theorem cover1 (i : S32x24576.Idx) :
    ∃ t : Fin cfg1.N, (cfg1.win 3).flush t = true ∧ i ∈ ((cfg1.win 3).blk t).view.set := by
  have h0 : (i 0).val < 32 := idx2_lt0 i
  have h1 : (i 1).val < 24576 := idx2_lt1 i
  obtain ⟨t, ht⟩ := idx_onto1 ⟨(i 1).val / 2048, by omega⟩
  have q0 : win1_3.index t (0 : Fin 2) = 0 := congrFun ht 0
  have q1 : win1_3.index t (1 : Fin 2) = (i 1).val / 2048 := congrFun ht 1
  refine ⟨t, flush1_3 t, ?_⟩
  rw [mem_blk1]
  intro a
  match a with
  | ⟨0, _⟩ => show win1_3.index t (0 : Fin 2) * 32 ≤ (i 0).val ∧ (i 0).val < win1_3.index t (0 : Fin 2) * 32 + 32; omega
  | ⟨1, _⟩ => show win1_3.index t (1 : Fin 2) * 2048 ≤ (i 1).val ∧ (i 1).val < win1_3.index t (1 : Fin 2) * 2048 + 2048; omega

/-- The output array after the region is `G1` of the arrays the region finds. -/
theorem arr1_eq (c : Dev nD) :
    (Gen.dat1 (F := Ideal) V c).arrAt 3 cfg1.N = G1 (V c main_call0_v1) (V c main_arg7) (V c main_call0_v2) :=
  (Gen.dat1 (F := Ideal) V c).arrAt_eq_of_cover 3 (G1 (V c main_call0_v1) (V c main_arg7) (V c main_call0_v2))
    (fun t _ => flushed1_eq V c t) cover1

/-- `G1` at entry (p, j). -/
theorem G1_apply (a : S32x1024.Idx → EReal) (w : S1024x24576.Idx → EReal) (b : S1x24576.Idx → EReal) (p : Fin 32) (j : Fin 24576) :
    G1 a w b (ix2 p j) = (∑ k : Fin 1024, a (ix2 p k) * w (ix2 k j)) + b (ix2 (0 : Fin 1) j) := rfl

/-- The output array after the region, at entry (p, j). -/
theorem arr1 (c : Dev nD) (p : Fin 32) (j : Fin 24576) :
    (Gen.dat1 (F := Ideal) V c).arrAt 3 cfg1.N (ix2 p j)
      = G1 (V c main_call0_v1) (V c main_arg7) (V c main_call0_v2) (ix2 p j) :=
  congrFun (arr1_eq V c) (ix2 p j)

end Cert.KernelIdeal.RegionVal

end
-- ==== Proof.Bridge1.lean ====
/-
  Region 1 against the reference's second layer. Region 1 leaves, at entry (p, j), the sum over k of h[p,k]·W2[k,j]
  plus the bias row's entry j (the tiling into twelve column blocks is gone from the array it leaves). The reference
  computes the same sum as one dot_general and lays the bias along every row by two broadcasts. Entry by entry they
  are one number, for any activations h.
-/
import proofs.«115412_j46059229282940_2_alg».proof.Proof.Gen.ReferenceIdeal.Read
import proofs.«115412_j46059229282940_2_alg».proof.Proof.RefReal
import proofs.«115412_j46059229282940_2_alg».proof.Proof.RegionVal1
import proofs.«115412_j46059229282940_2_alg».proof.Proof.LibPlainContract
import proofs.«115412_j46059229282940_2_alg».proof.Proof.LibLreluRows
import Idealize.ShloMosaic.Lib.ValueIdx

noncomputable section

namespace Cert.Bridge1

open Idealize.ShloMosaic Idealize.ShloMosaic.ValueIdx Idealize.ShloMosaic.SoftmaxUnit

variable
  (x0 : (⟨Cert.ReferenceIdeal.S32x8192x3, .f32⟩ : BufTy).Contents (Elt Ideal))
  (x1 : (⟨Cert.ReferenceIdeal.S8192x16, .i32⟩ : BufTy).Contents (Elt Ideal))
  (x2 : (⟨Cert.ReferenceIdeal.S8192, .i32⟩ : BufTy).Contents (Elt Ideal))
  (x3 : (⟨Cert.ReferenceIdeal.S8192x16, .f32⟩ : BufTy).Contents (Elt Ideal))
  (x4 : (⟨Cert.ReferenceIdeal.S32x256, .f32⟩ : BufTy).Contents (Elt Ideal))
  (x5 : (⟨Cert.ReferenceIdeal.S256x1024, .f32⟩ : BufTy).Contents (Elt Ideal))
  (x6 : (⟨Cert.ReferenceIdeal.S1024, .f32⟩ : BufTy).Contents (Elt Ideal))
  (x7 : (⟨Cert.ReferenceIdeal.S1024x24576, .f32⟩ : BufTy).Contents (Elt Ideal))
  (x8 : (⟨Cert.ReferenceIdeal.S24576, .f32⟩ : BufTy).Contents (Elt Ideal))

/-- The flat reconstruction region 1 leaves, from the reference's activations, is the reference's. -/
theorem flat_bridge (h : Cert.KernelIdeal.S24576.ShapeCasts Cert.KernelIdeal.S1x24576) :
    Cert.KernelIdeal.RegionVal.G1 (Cert.ReferenceIdeal.Read.val_main_v4 (F := Ideal) x4 x5 x6) x7
        (shapeCast Cert.KernelIdeal.S1x24576 x8 h)
      = Cert.ReferenceIdeal.Read.val_main_v11 (F := Ideal) x4 x5 x6 x7 x8 := by
  funext i
  obtain ⟨p, j, rfl⟩ : ∃ (p : Fin 32) (j : Fin 24576), i = ix2 p j := ⟨i 0, i 1, eq_ix2 i⟩
  rw [Cert.KernelIdeal.RegionVal.G1_apply, Cert.ReferenceIdeal.Read.val_main_v11_apply]
  refine congrArg₂ (fun a b : EReal => a + b) ?_ ?_
  · exact (Cert.LibPlainContract.dotGeneral_plain_apply 32 1024 24576 none _
      (Cert.ReferenceIdeal.Read.val_main_v4 (F := Ideal) x4 x5 x6) x7 p j).symm
  · exact (Cert.LibLreluRows.rowCast_apply h x8 j).trans (Cert.LibLreluRows.biasRows_apply _ _ x8 p j).symm

end Cert.Bridge1

end
-- ==== Proof.LibRowsContract.lean ====
/-
  A product of rows read at one entry.

  For the dimension numbers of an [M, K] by [N, K] product that contracts the second axis of both operands (no batch
  axis) — every row of the left operand against every row of the right one — the sum over the contraction index that the
  exact product takes at result entry (p, q) is the sum over k < K of l[p, k] · r[q, k]. Stated for the sum itself, for a
  matrix unit's product into a zero accumulator, and for a host dot product, at the exact (extended real) reading of floats.
-/
import Idealize.ShloMosaic.PureOps.Ideal.Laws
import Idealize.ShloMosaic.Lib.ValueIdx

noncomputable section

namespace Cert.LibRowsContract

open Idealize.ShloMosaic Idealize.ShloMosaic.ValueIdx

/-- The dimension numbers of a product of rows: [M, K] with [N, K], both second axes contracted. -/
abbrev rowsDims (M K N : Nat) (h : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := h

variable (M K N : Nat) (h : DotDims.WF ⟨2, ![M, K]⟩ ⟨2, ![N, K]⟩ ⟨2, ![M, N]⟩ [1] [1] [0] [0] [] [])

/-- The contraction index has one axis, of extent K. -/
theorem rows_rank : (rowsDims M K N h).contr.rank = 1 := rfl
theorem rows_size : (rowsDims M K N h).contr.size ⟨0, Nat.one_pos⟩ = K := rfl

/-- At result entry (p, q) and contraction position k the left operand is read at (p, k) … -/
theorem rows_lhsIdx (p : Fin M) (q : Fin N) (k : Fin K) :
    (rowsDims M K N h).lhsIdx (ix2 p q) ((contrEquiv1 (rowsDims M K N h) K rfl rfl).symm k) = ix2 p k :=
  funext fun a => Fin.ext (by
    have hk := contrEquiv1_symm_val (rowsDims M K N h) K rfl rfl k
    match a with
    | ⟨0, _⟩ => rfl
    | ⟨1, _⟩ => exact ((rowsDims M K N h).lhsIdx_val_of_single rfl _ _).trans hk)

/-- … and the right operand at (q, k). -/
theorem rows_rhsIdx (p : Fin M) (q : Fin N) (k : Fin K) :
    (rowsDims M K N h).rhsIdx (ix2 p q) ((contrEquiv1 (rowsDims M K N h) K rfl rfl).symm k) = ix2 q k :=
  funext fun a => Fin.ext (by
    have hk := contrEquiv1_symm_val (rowsDims M K N h) K rfl rfl k
    match a with
    | ⟨0, _⟩ => rfl
    | ⟨1, _⟩ => exact ((rowsDims M K N h).rhsIdx_val_of_single rfl _ _).trans hk)

/-- The contraction sum at entry (p, q) is the sum over k of l[p, k] · r[q, k]. -/
theorem rows_sum (l : (⟨2, ![M, K]⟩ : Shape).Idx → EReal) (r : (⟨2, ![N, K]⟩ : Shape).Idx → EReal)
    (p : Fin M) (q : Fin N) :
    ∑ k : (rowsDims M K N h).contr.Idx,
        l ((rowsDims M K N h).lhsIdx (ix2 p q) k) * r ((rowsDims M K N h).rhsIdx (ix2 p q) k)
      = ∑ k : Fin K, l (ix2 p k) * r (ix2 q k) := by
  rw [← Equiv.sum_comp (contrEquiv1 (rowsDims M K N h) K rfl rfl).symm]
  refine Finset.sum_congr rfl fun k _ => ?_
  rw [rows_lhsIdx, rows_rhsIdx]

/-- A matrix unit's product of rows into the zero accumulator, at entry (p, q). -/
theorem matmul_rows_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (rowsDims M K N h) prec l r (constant ⟨2, ![M, N]⟩ .f32 0x00000000#32) (ix2 p q)
      = ∑ k : Fin K, l (ix2 p k) * r (ix2 q k) :=
  (Ideal.matmul_constant_zero_apply (rowsDims M K N h) prec l r (ix2 p q)).trans (rows_sum M K N h l r p q)

/-- A host dot product of rows, at entry (p, q). -/
theorem dotGeneral_rows_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (rowsDims M K N h) prec sched l r (ix2 p q) = ∑ k : Fin K, l (ix2 p k) * r (ix2 q k) :=
  (Ideal.dotGeneral_apply (rowsDims M K N h) prec sched l r (ix2 p q)).trans (rows_sum M K N h l r p q)

end Cert.LibRowsContract

end
-- ==== Proof.LibGroupedSum.lean ====
/-
  A sum over consecutive positions, grouped.

  The sum of f over the first K·n natural numbers is the sum, over the n consecutive groups of K positions, of each group's
  sum: position K·g + k is the k-th of group g. In any additive commutative monoid, so with no finiteness or
  cancellation asked: it holds for the extended reals as it stands. This is what equates one contraction over K·n
  features with the same contraction accumulated group by group.
-/
import Idealize.ShloMosaic.Lib.ValueIdx

namespace Cert.LibGroupedSum

/-- The sum over the first K·n positions is the sum over the n groups of the sums over each group's K positions. -/
theorem sum_range_mul_groups {M : Type*} [AddCommMonoid M] (K : ℕ) (f : ℕ → M) :
    ∀ n : ℕ, ∑ i ∈ Finset.range (K * n), f i = ∑ g ∈ Finset.range n, ∑ k : Fin K, f (K * g + k.val)
  | 0 => by simp
  | n + 1 => by
    have h1 : ∑ i ∈ Finset.range (K * (n + 1)), f i
        = ∑ i ∈ Finset.range (K * n), f i + ∑ k ∈ Finset.range K, f (K * n + k) := by
      rw [show K * (n + 1) = K * n + K from by ring, Finset.sum_range_add]
    rw [h1, sum_range_mul_groups K f n, Finset.sum_range_succ (fun g => ∑ k : Fin K, f (K * g + k.val)) n]
    exact congrArg (_ + ·) (Finset.sum_range (fun k => f (K * n + k)))

end Cert.LibGroupedSum
-- ==== Proof.RegionVal2Sum.lean ====
/-
  The columns of the accumulated contraction, and the regrouping of its sum.

  The 24576 columns are cut into 12 consecutive tiles of 2048; tile 6·cc + i is the i-th of the six tiles that core cc
  accumulates. Position k of tile i of core cc is column 2048·(6·cc + i) + k. Summing over cores, then over a core's
  tiles, then over a tile's positions visits every column exactly once, in order: in any additive commutative monoid the
  triple sum is the sum over all columns. No finiteness is asked, so this holds for the extended reals as it stands.
-/
import proofs.«115412_j46059229282940_2_alg».proof.Proof.LibGroupedSum

namespace Cert.KernelIdeal.RegionVal

/-- The column of position `k` inside tile `i` of core `cc`. -/
def col (cc : Fin 2) (i : Fin 6) (k : Fin 2048) : Fin 24576 :=
  ⟨2048 * (6 * cc.val + i.val) + k.val, by have := cc.isLt; have := i.isLt; have := k.isLt; omega⟩

theorem col_val (cc : Fin 2) (i : Fin 6) (k : Fin 2048) : (col cc i k).val = 2048 * (6 * cc.val + i.val) + k.val := rfl

/-- Summing over cores, tiles and positions is summing over all columns. -/
theorem sum_cols {M : Type*} [AddCommMonoid M] (F : Fin 24576 → M) :
    ∑ cc : Fin 2, ∑ i : Fin 6, ∑ k : Fin 2048, F (col cc i k) = ∑ j : Fin 24576, F j := by
  -- F extended by zero to all natural numbers
  let f : ℕ → M := fun n => if h : n < 24576 then F ⟨n, h⟩ else 0
  have hF : ∀ j : Fin 24576, F j = f j.val := fun j => by
    show F j = dite (j.val < 24576) (fun h => F ⟨j.val, h⟩) (fun _ => 0)
    rw [dif_pos j.isLt]
  calc ∑ cc : Fin 2, ∑ i : Fin 6, ∑ k : Fin 2048, F (col cc i k)
      = ∑ cc : Fin 2, ∑ i : Fin 6, ∑ k : Fin 2048, f (2048 * (6 * cc.val + i.val) + k.val) :=
        Finset.sum_congr rfl fun cc _ => Finset.sum_congr rfl fun i _ => Finset.sum_congr rfl fun k _ => hF (col cc i k)
    _ = ∑ cc ∈ Finset.range 2, ∑ i : Fin 6, ∑ k : Fin 2048, f (2048 * (6 * cc + i.val) + k.val) :=
        Fin.sum_univ_eq_sum_range (fun cc => ∑ i : Fin 6, ∑ k : Fin 2048, f (2048 * (6 * cc + i.val) + k.val)) 2
    _ = ∑ t ∈ Finset.range (6 * 2), ∑ k : Fin 2048, f (2048 * t + k.val) :=
        (Cert.LibGroupedSum.sum_range_mul_groups 6 (fun t => ∑ k : Fin 2048, f (2048 * t + k.val)) 2).symm
    _ = ∑ n ∈ Finset.range (2048 * 12), f n :=
        (Cert.LibGroupedSum.sum_range_mul_groups 2048 f 12).symm
    _ = ∑ j : Fin 24576, f j.val := (Fin.sum_univ_eq_sum_range f 24576).symm
    _ = ∑ j : Fin 24576, F j := Finset.sum_congr rfl fun j _ => (hF j).symm

/-- The contraction over all 24576 columns is, from zero, the sum over the two cores of each core's accumulated
    contraction over its six tiles. -/
theorem regroup (g : Fin 32 → Fin 24576 → EReal) (w : Fin 1024 → Fin 24576 → EReal) (p : Fin 32) (q : Fin 1024) :
    (0 : EReal) + ∑ cc : Fin 2, ∑ i : Fin 6, ∑ k : Fin 2048, g p (col cc i k) * w q (col cc i k)
      = ∑ j : Fin 24576, g p j * w q j := by
  rw [zero_add]
  exact sum_cols (fun j => g p j * w q j)

end Cert.KernelIdeal.RegionVal
-- ==== Proof.RegionVal2.lean ====
/-
  The accumulated product of rows, read off the accumulating region.

  The region runs over 12 points, point t = 6·cc + i being tile i of core cc. At every point it reads column block t
  (2048 columns) of a [32, 24576] array and of a [1024, 24576] array, forms the product of the rows of the two blocks
  (entry (p, q): the sum over the block's columns k of first[p, k] · second[q, k]) and adds it onto its [1, 32, 1024]
  output block, which it zeroes first at the first tile of a core; the block is written to core cc's slice of the
  [2, 32, 1024] result after the core's last tile. Over the extended reals the result therefore holds, at (cc, p, q),
  the sum over the core's six tiles of the tile's product of rows.

  In order: what each of the two cases of the body leaves in the output block, as the payload of its covering store;
  the payloads at an entry; the input blocks as columns of their arrays; the running contents of the output block after
  each point, by induction on the point; what each write-back writes; and that the write-backs cover the result array.
-/
import proofs.«115412_j46059229282940_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import proofs.«115412_j46059229282940_2_alg».proof.Proof.LibRowsContract
import proofs.«115412_j46059229282940_2_alg».proof.Proof.RegionVal2Sum
import Idealize.ShloMosaic.PureOps.Ideal.Laws

noncomputable section

namespace Cert.KernelIdeal.RegionVal

open Cert.KernelIdeal Cert.KernelIdeal.Gen Idealize.ShloMosaic Idealize.ShloMosaic.ValueIdx
open Idealize.ShloMosaic.TcCoe Idealize.SL.Sem
open Idealize.ShloMosaic.Pipeline (Dat)

/-! ## What each case of the body leaves in the output block -/

section Pieces
variable {F : FTy → Type} [FloatOps F]

theorem zero_off3_2 : (![0, 0, 0] : Fin 3 → Nat) = fun _ => 0 := funext fun a => by fin_cases a <;> rfl
theorem zero_off2_2 : (![0, 0] : Fin 2 → Nat) = fun _ => 0 := funext fun a => by fin_cases a <;> rfl

/-- A point that is not the first of its core: the block holding `xo` is left at the accumulating payload of the two
    input blocks and `xo` (its one covering store; the loads read the whole buffers). -/
theorem out_B2 (c : Dev nD) (i : grid2.Coords) (a2 : Memref sig .tc .vmem S32x2048 .f32) (h2 : a2.IsWhole)
    (a3 : Memref sig .tc .vmem S1024x2048 .f32) (h3 : a3.IsWhole) (a4 : Memref sig .tc .vmem S1x32x1024 .f32) (h4 : a4.IsWhole)
    (hc : ¬cond2_0 i) (x0 : Vec F S32x2048 .f32) (x1 : Vec F S1024x2048 .f32) (xo : Vec F S1x32x1024 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  rw [View.canon_unit_zero zero_off3_2]
  simp only [View.readAt_eq_ld, h2.read_unread, h3.read_unread, h4.read_unread, View.ld_unit_zero (S := S32x2048) zero_off2_2,
    View.ld_unit_zero (S := S1024x2048) zero_off2_2, View.ld_unit_zero (S := S1x32x1024) zero_off3_2]

/-- The first point of a core: the block is zeroed, read back, and left at the accumulating payload over the zero block. -/
theorem out_A2 (c : Dev nD) (i : grid2.Coords) (a2 : Memref sig .tc .vmem S32x2048 .f32) (h2 : a2.IsWhole)
    (a3 : Memref sig .tc .vmem S1024x2048 .f32) (h3 : a3.IsWhole) (a4 : Memref sig .tc .vmem S1x32x1024 .f32) (h4 : a4.IsWhole)
    (hc : cond2_0 i) (x0 : Vec F S32x2048 .f32) (x1 : Vec F S1024x2048 .f32) :
    out2_A_2 c i a2 h2 a3 h3 a4 h4 hc x0 x1 = k2_pay2 x0 x1 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S1x32x1024) zero_off3_2, View.readCov_unit_zero (S := S1x32x1024) _ zero_off3_2]
  simp only [View.readAt_eq_ld, h2.read_unread, h3.read_unread, View.ld_unit_zero (S := S32x2048) zero_off2_2,
    View.ld_unit_zero (S := S1024x2048) zero_off2_2]

end Pieces

/-! ## The payloads at an entry, over the extended reals -/

/-- The zero block at an entry. -/
theorem pay1_apply2 (u : Fin 1) (p : Fin 32) (q : Fin 1024) : k2_pay1 (F := Ideal) (ix3 u p q) = 0 := by
  unfold k2_pay1
  refine (shapeCast_ab_1ab_apply _ _ u p q).trans ?_
  exact Ideal.ofBits_zero_f32

/-- The accumulating payload at entry (p, q): what the block held there plus the product of row p of the first input
    block with row q of the second. -/
theorem pay2_apply2 (x0 : Vec Ideal S32x2048 .f32) (x1 : Vec Ideal S1024x2048 .f32) (xo : Vec Ideal S1x32x1024 .f32)
    (p : Fin 32) (q : Fin 1024) :
    k2_pay2 (F := Ideal) x0 x1 xo (ix3 (0 : Fin 1) p q)
      = xo (ix3 (0 : Fin 1) p q) + ∑ k : Fin 2048, x0 (ix2 p k) * x1 (ix2 q k) := by
  unfold k2_pay2
  refine (shapeCast_ab_1ab_apply _ _ (0 : Fin 1) p q).trans ?_
  refine (addf_apply _ _ (ix2 p q)).trans ?_
  refine congrArg₂ (· + ·) (shapeCast_1ab_ab_apply xo _ p q) ?_
  refine (Cert.LibRowsContract.matmul_rows_apply 32 2048 1024 dot_S32x2048_S1024x2048_S32x1024_1_1_0_0_n_n_wf none _ _ p q).trans ?_
  refine Finset.sum_congr rfl fun k _ => ?_
  show shapeCast S32x2048 x0 _ (ix2 p k) * x1 (ix2 q k) = _
  rw [shapeCast_self]

/-! ## The input blocks as columns of the arrays -/

section Blocks
variable {F : FTy → Type} [FloatOps F]
variable (V : (c : Dev nD) → (b : Ref sig .tc) → Buf (Elt F) ((c : Thread nD τ).loc b))

/-- The printed index maps, decided over the grid: at point t both inputs' blocks are column block t, the output's
    block is core t / 6's. -/
theorem idx_facts2 : ∀ t : Fin cfg2.N, win2_0.index t (0 : Fin 2) = 0 ∧ win2_0.index t (1 : Fin 2) = t.val
    ∧ win2_1.index t (0 : Fin 2) = 0 ∧ win2_1.index t (1 : Fin 2) = t.val
    ∧ win2_2.index t (0 : Fin 3) = t.val / 6 ∧ win2_2.index t (1 : Fin 3) = 0 ∧ win2_2.index t (2 : Fin 3) = 0 :=
  (by decide +kernel : ∀ t : Fin grid2.N, _)

/-- The first input's block at point t is columns 2048·t … 2048·t + 2047 of its array. -/
theorem iblkL_apply2 (c : Dev nD) (t : Fin cfg2.N) (x : S32x2048.Idx) (j : S32x24576.Idx)
    (hj0 : (j 0).val = (x 0).val) (hj1 : (j 1).val = 2048 * t.val + (x 1).val) :
    (iblk2 V c 0 t : Vec F S32x2048 .f32) x = (V c main_call0_v58 : S32x24576.Idx → Elt F .f32) j := by
  obtain ⟨e0, e1, -⟩ := idx_facts2 t
  unfold iblk2
  rw [View.read_apply]
  show V c main_call0_v58 _ = V c main_call0_v58 _
  congr 1
  funext a
  apply Fin.ext
  match a with
  | ⟨0, _⟩ => show win2_0.index t (0 : Fin 2) * 32 + 1 * (x 0).val = (j 0).val; rw [e0, hj0]; omega
  | ⟨1, _⟩ => show win2_0.index t (1 : Fin 2) * 2048 + 1 * (x 1).val = (j 1).val; rw [e1, hj1]; omega

/-- The second input's block at point t is columns 2048·t … 2048·t + 2047 of its array. -/
theorem iblkR_apply2 (c : Dev nD) (t : Fin cfg2.N) (x : S1024x2048.Idx) (j : S1024x24576.Idx)
    (hj0 : (j 0).val = (x 0).val) (hj1 : (j 1).val = 2048 * t.val + (x 1).val) :
    (iblk2 V c 1 t : Vec F S1024x2048 .f32) x = (V c main_arg7 : S1024x24576.Idx → Elt F .f32) j := by
  obtain ⟨-, -, e0, e1, -⟩ := idx_facts2 t
  unfold iblk2
  rw [View.read_apply]
  show V c main_arg7 _ = V c main_arg7 _
  congr 1
  funext a
  apply Fin.ext
  match a with
  | ⟨0, _⟩ => show win2_1.index t (0 : Fin 2) * 1024 + 1 * (x 0).val = (j 0).val; rw [e0, hj0]; omega
  | ⟨1, _⟩ => show win2_1.index t (1 : Fin 2) * 2048 + 1 * (x 1).val = (j 1).val; rw [e1, hj1]; omega

end Blocks

/-! ## The accumulation, entry by entry -/

section Accumulation
variable (V : (c : Dev nD) → (b : Ref sig .tc) → Buf (Elt Ideal) ((c : Thread nD τ).loc b))

/-- The two arrays the region reads and their blocks at a point, as functions into the extended reals. -/
abbrev arrL2 (c : Dev nD) : S32x24576.Idx → EReal := V c main_call0_v58
abbrev arrR2 (c : Dev nD) : S1024x24576.Idx → EReal := V c main_arg7
abbrev blkL2 (c : Dev nD) (t : Fin cfg2.N) : S32x2048.Idx → EReal := iblk2 V c 0 t
abbrev blkR2 (c : Dev nD) (t : Fin cfg2.N) : S1024x2048.Idx → EReal := iblk2 V c 1 t

/-- Column block n's share of entry (p, q): the product of row p of the first array with row q of the second over the
    2048 columns of block n (zero past the 12 blocks). -/
def tile2 (c : Dev nD) (p : Fin 32) (q : Fin 1024) (n : ℕ) : EReal :=
  if h : n < 12 then
    ∑ k : Fin 2048, arrL2 V c (ix2 p (⟨2048 * n + k.val, by have := k.isLt; omega⟩ : Fin 24576))
      * arrR2 V c (ix2 q (⟨2048 * n + k.val, by have := k.isLt; omega⟩ : Fin 24576))
  else 0

/-- The product of rows of the two input blocks at point t is column block t's share. -/
theorem block_sum2 (c : Dev nD) (t : Fin cfg2.N) (p : Fin 32) (q : Fin 1024) :
    ∑ k : Fin 2048, blkL2 V c t (ix2 p k) * blkR2 V c t (ix2 q k) = tile2 V c p q t.val := by
  have ht : t.val < 12 := lt_of_lt_of_eq t.isLt (show cfg2.N = 12 from N_2)
  unfold tile2
  rw [dif_pos ht]
  refine Finset.sum_congr rfl fun k _ => ?_
  exact congrArg₂ (· * ·)
    (iblkL_apply2 V c t (ix2 p k) (ix2 p (⟨2048 * t.val + k.val, by have := k.isLt; omega⟩ : Fin 24576)) rfl rfl)
    (iblkR_apply2 V c t (ix2 q k) (ix2 q (⟨2048 * t.val + k.val, by have := k.isLt; omega⟩ : Fin 24576)) rfl rfl)

/-- The first point of a core leaves, at entry (p, q), zero plus the product of rows of its input blocks. -/
theorem out_A_apply2 (c : Dev nD) (i : grid2.Coords) (a2 : Memref sig .tc .vmem S32x2048 .f32) (h2 : a2.IsWhole)
    (a3 : Memref sig .tc .vmem S1024x2048 .f32) (h3 : a3.IsWhole) (a4 : Memref sig .tc .vmem S1x32x1024 .f32) (h4 : a4.IsWhole)
    (hc : cond2_0 i) (x0 : Vec Ideal S32x2048 .f32) (x1 : Vec Ideal S1024x2048 .f32) (p : Fin 32) (q : Fin 1024) :
    out2_A_2 (F := Ideal) c i a2 h2 a3 h3 a4 h4 hc x0 x1 (ix3 (0 : Fin 1) p q)
      = 0 + ∑ k : Fin 2048, x0 (ix2 p k) * x1 (ix2 q k) := by
  rw [out_A2 c i a2 h2 a3 h3 a4 h4 hc x0 x1, pay2_apply2 x0 x1 (k2_pay1 (F := Ideal)) p q, pay1_apply2 (0 : Fin 1) p q]

/-- A later point leaves, at entry (p, q), what the block held there plus the product of rows of its input blocks. -/
theorem out_B_apply2 (c : Dev nD) (i : grid2.Coords) (a2 : Memref sig .tc .vmem S32x2048 .f32) (h2 : a2.IsWhole)
    (a3 : Memref sig .tc .vmem S1024x2048 .f32) (h3 : a3.IsWhole) (a4 : Memref sig .tc .vmem S1x32x1024 .f32) (h4 : a4.IsWhole)
    (hc : ¬cond2_0 i) (x0 : Vec Ideal S32x2048 .f32) (x1 : Vec Ideal S1024x2048 .f32) (xo : Vec Ideal S1x32x1024 .f32)
    (p : Fin 32) (q : Fin 1024) :
    out2_B_2 (F := Ideal) c i a2 h2 a3 h3 a4 h4 hc x0 x1 xo (ix3 (0 : Fin 1) p q)
      = xo (ix3 (0 : Fin 1) p q) + ∑ k : Fin 2048, x0 (ix2 p k) * x1 (ix2 q k) := by
  rw [out_B2 c i a2 h2 a3 h3 a4 h4 hc x0 x1 xo, pay2_apply2 x0 x1 xo p q]

/-- After point n the output block holds, at entry (p, q), the shares of the column blocks its core has met so far:
    blocks 6·(n / 6) … n. By induction on the point. -/
theorem outsAt_apply2 (c : Dev nD) (p : Fin 32) (q : Fin 1024) : ∀ (n : ℕ) (h : n < cfg2.N),
    (outsAt2 (F := Ideal) V c n h : Vec Ideal S1x32x1024 .f32) (ix3 (0 : Fin 1) p q)
      = ∑ j ∈ Finset.range (n % 6 + 1), tile2 V c p q (6 * (n / 6) + j)
  | 0, h => by
    refine (congrFun (outsAt2_A (F := Ideal) V c ⟨0, h⟩ rfl) (ix3 (0 : Fin 1) p q)).trans ?_
    refine (out_A_apply2 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      ((hcond2_0 ⟨0, h⟩).mpr rfl) (blkL2 V c ⟨0, h⟩) (blkR2 V c ⟨0, h⟩) p q).trans ?_
    rw [block_sum2 V c ⟨0, h⟩ p q, zero_add]
    exact (Finset.sum_range_one _).symm
  | n + 1, h => by
    have hN : n + 1 < 12 := lt_of_lt_of_eq h (show cfg2.N = 12 from N_2)
    by_cases h0 : (n + 1) % 6 = 0
    · refine (congrFun (outsAt2_A (F := Ideal) V c ⟨n + 1, h⟩ h0) (ix3 (0 : Fin 1) p q)).trans ?_
      refine (out_A_apply2 c (grid2.coords ⟨n + 1, h⟩) (ms2_0 ⟨n + 1, h⟩) (hs2_0 ⟨n + 1, h⟩) (ms2_1 ⟨n + 1, h⟩) (hs2_1 ⟨n + 1, h⟩)
        (ms2_2 ⟨n + 1, h⟩) (hs2_2 ⟨n + 1, h⟩) ((hcond2_0 ⟨n + 1, h⟩).mpr h0) (blkL2 V c ⟨n + 1, h⟩) (blkR2 V c ⟨n + 1, h⟩) p q).trans ?_
      rw [block_sum2 V c ⟨n + 1, h⟩ p q, zero_add, h0, Finset.sum_range_one]
      exact congrArg (tile2 V c p q) (by show n + 1 = 6 * ((n + 1) / 6) + 0; omega)
    · refine (congrFun (outsAt2_B (F := Ideal) V c ⟨n + 1, h⟩ h0) (ix3 (0 : Fin 1) p q)).trans ?_
      refine (out_B_apply2 c (grid2.coords ⟨n + 1, h⟩) (ms2_0 ⟨n + 1, h⟩) (hs2_0 ⟨n + 1, h⟩) (ms2_1 ⟨n + 1, h⟩) (hs2_1 ⟨n + 1, h⟩)
        (ms2_2 ⟨n + 1, h⟩) (hs2_2 ⟨n + 1, h⟩) (fun hh => h0 ((hcond2_0 ⟨n + 1, h⟩).mp hh)) (blkL2 V c ⟨n + 1, h⟩) (blkR2 V c ⟨n + 1, h⟩)
        (outsAt2 (F := Ideal) V c n (Nat.lt_of_succ_lt h)) p q).trans ?_
      rw [block_sum2 V c ⟨n + 1, h⟩ p q, outsAt_apply2 c p q n (Nat.lt_of_succ_lt h)]
      have e1 : (n + 1) % 6 + 1 = (n % 6 + 1) + 1 := by omega
      have e2 : (n + 1) / 6 = n / 6 := by omega
      rw [e1, e2, Finset.sum_range_succ (fun j => tile2 V c p q (6 * (n / 6) + j)) (n % 6 + 1)]
      exact congrArg (fun x => (∑ j ∈ Finset.range (n % 6 + 1), tile2 V c p q (6 * (n / 6) + j)) + tile2 V c p q x)
        (by show n + 1 = 6 * (n / 6) + (n % 6 + 1); omega)

end Accumulation

/-! ## From the blocks to the array -/

section Array
variable (V : (c : Dev nD) → (b : Ref sig .tc) → Buf (Elt Ideal) ((c : Thread nD τ).loc b))

/-- Core cc's accumulated product at entry (p, q): over its six tiles, the product of row p of the first array with
    row q of the second over the tile's columns. -/
def coreSum2 (a0 : S32x24576.Idx → EReal) (a1 : S1024x24576.Idx → EReal) (cc : Fin 2) (p : Fin 32) (q : Fin 1024) : EReal :=
  ∑ i : Fin 6, ∑ k : Fin 2048, a0 (ix2 p (col cc i k)) * a1 (ix2 q (col cc i k))

/-- What the output array ends holding, as a function of the two arrays read: at (cc, p, q), core cc's accumulated
    product. -/
def G2 (a0 : S32x24576.Idx → EReal) (a1 : S1024x24576.Idx → EReal) : S2x32x1024.Idx → EReal :=
  fun j => coreSum2 a0 a1 (j 0) (j 1) (j 2)

theorem G2_apply (a0 : S32x24576.Idx → EReal) (a1 : S1024x24576.Idx → EReal) (cc : Fin 2) (p : Fin 32) (q : Fin 1024) :
    G2 a0 a1 (ix3 cc p q) = ∑ i : Fin 6, ∑ k : Fin 2048, a0 (ix2 p (col cc i k)) * a1 (ix2 q (col cc i k)) := rfl

/-- Tile i of core cc is column block 6·cc + i. -/
theorem tile_col2 (c : Dev nD) (p : Fin 32) (q : Fin 1024) (cc : Fin 2) (i : Fin 6) :
    tile2 V c p q (6 * cc.val + i.val)
      = ∑ k : Fin 2048, arrL2 V c (ix2 p (col cc i k)) * arrR2 V c (ix2 q (col cc i k)) := by
  unfold tile2
  rw [dif_pos (by have := cc.isLt; have := i.isLt; omega)]
  rfl

/-- After the last point of core cc the output block holds the core's accumulated product. -/
theorem outsAt_last2 (c : Dev nD) (p : Fin 32) (q : Fin 1024) (n : ℕ) (h : n < cfg2.N) (cc : Fin 2) (hn : n = 6 * cc.val + 5) :
    (outsAt2 (F := Ideal) V c n h : Vec Ideal S1x32x1024 .f32) (ix3 (0 : Fin 1) p q) = coreSum2 (arrL2 V c) (arrR2 V c) cc p q := by
  rw [outsAt_apply2 V c p q n h]
  have e1 : n % 6 + 1 = 6 := by omega
  have e2 : 6 * (n / 6) = 6 * cc.val := by omega
  rw [e1, e2, Finset.sum_range (fun j => tile2 V c p q (6 * cc.val + j))]
  unfold coreSum2
  exact Finset.sum_congr rfl fun i _ => tile_col2 V c p q cc i

/-- What a write-back writes (the last point of a core) is that core's block of `G2` of the two arrays. -/
theorem flushed_eq2 (c : Dev nD) (t : Fin cfg2.N) (hf : (cfg2.win 2).flush t = true) :
    (dat2 (F := Ideal) V c).flushed 2 t = ((cfg2.win 2).blk t).view.read (Elt Ideal) (G2 (arrL2 V c) (arrR2 V c)) := by
  have hN : t.val < 12 := lt_of_lt_of_eq t.isLt (show cfg2.N = 12 from N_2)
  have h5 : t.val % 6 = 5 := (flush2_2 t).mp hf
  obtain ⟨-, -, -, -, e0, e1, e2⟩ := idx_facts2 t
  show (cfg2.win 2).cut (grid2.coords t) ((dat2 (F := Ideal) V c).after 2 t) = _
  rw [after2_2]
  funext j
  rw [View.read_apply]
  have hj0 : (j 0).val < 1 := (j 0).isLt
  have hcc : t.val / 6 < 2 := by omega
  obtain ⟨p, hp⟩ : ∃ p : Fin 32, p.val = (j 1).val := ⟨⟨(j 1).val, (j 1).isLt⟩, rfl⟩
  obtain ⟨q, hq⟩ : ∃ q : Fin 1024, q.val = (j 2).val := ⟨⟨(j 2).val, (j 2).isLt⟩, rfl⟩
  -- the entry of the block, by coordinates
  have hx : (cfg2.win 2).xinj (grid2.coords t) j = ix3 (0 : Fin 1) p q := funext fun a => Fin.ext (by
    match a with
    | ⟨0, _⟩ => show (j 0).val = 0; omega
    | ⟨1, _⟩ => exact hp.symm
    | ⟨2, _⟩ => exact hq.symm)
  -- where it sits in the array: core t / 6, row p, column q
  have h0 : ((((cfg2.win 2).blk t).view.emb j) 0 : Fin 2) = ⟨t.val / 6, hcc⟩ :=
    Fin.ext (by show win2_2.index t (0 : Fin 3) * 1 + 1 * (j 0).val = t.val / 6; rw [e0]; omega)
  have h1 : ((((cfg2.win 2).blk t).view.emb j) 1 : Fin 32) = p :=
    Fin.ext (by show win2_2.index t (1 : Fin 3) * 32 + 1 * (j 1).val = p.val; rw [e1, hp]; omega)
  have h2 : ((((cfg2.win 2).blk t).view.emb j) 2 : Fin 1024) = q :=
    Fin.ext (by show win2_2.index t (2 : Fin 3) * 1024 + 1 * (j 2).val = q.val; rw [e2, hq]; omega)
  show (outsAt2 (F := Ideal) V c t.val t.isLt : Vec Ideal S1x32x1024 .f32) ((cfg2.win 2).xinj (grid2.coords t) j)
    = coreSum2 (arrL2 V c) (arrR2 V c) ((((cfg2.win 2).blk t).view.emb j) 0) ((((cfg2.win 2).blk t).view.emb j) 1) ((((cfg2.win 2).blk t).view.emb j) 2)
  rw [hx, h0, h1, h2]
  exact outsAt_last2 V c p q t.val t.isLt ⟨t.val / 6, hcc⟩ (by show t.val = 6 * (t.val / 6) + 5; omega)

/-- Every entry of the array is in the block some write-back writes: entry (cc, p, q) in the one of core cc's last
    point, 6·cc + 5. So the array ends holding `G2` of the two arrays. -/
theorem arr2_eq (c : Dev nD) : (dat2 (F := Ideal) V c).arrAt 2 cfg2.N = G2 (V c main_call0_v58) (V c main_arg7) :=
  (dat2 (F := Ideal) V c).arrAt_eq_of_cover 2 (G2 (arrL2 V c) (arrR2 V c)) (flushed_eq2 V c) fun i => by
    have hi0 : (i 0).val < 2 := (i 0).isLt
    have hi1 : (i 1).val < 32 := (i 1).isLt
    have hi2 : (i 2).val < 1024 := (i 2).isLt
    have ht : 6 * (i 0).val + 5 < cfg2.N := by rw [show cfg2.N = 12 from N_2]; omega
    obtain ⟨-, -, -, -, e0, e1, e2⟩ := idx_facts2 ⟨6 * (i 0).val + 5, ht⟩
    have e0' : win2_2.index ⟨6 * (i 0).val + 5, ht⟩ (0 : Fin 3) = (6 * (i 0).val + 5) / 6 := e0
    refine ⟨⟨6 * (i 0).val + 5, ht⟩, (flush2_2 _).mpr (by show (6 * (i 0).val + 5) % 6 = 5; omega), ?_⟩
    show i ∈ ((View.whole main_call0_v59).slice (win2_2.rect ⟨6 * (i 0).val + 5, ht⟩)).set
    rw [View.set_slice_whole, Rect.mem_set_unit]
    intro a
    match a with
    | ⟨0, _⟩ =>
      show win2_2.index ⟨6 * (i 0).val + 5, ht⟩ (0 : Fin 3) * 1 ≤ (i 0).val
        ∧ (i 0).val < win2_2.index ⟨6 * (i 0).val + 5, ht⟩ (0 : Fin 3) * 1 + 1
      rw [e0']; omega
    | ⟨1, _⟩ =>
      show win2_2.index ⟨6 * (i 0).val + 5, ht⟩ (1 : Fin 3) * 32 ≤ (i 1).val
        ∧ (i 1).val < win2_2.index ⟨6 * (i 0).val + 5, ht⟩ (1 : Fin 3) * 32 + 32
      rw [e1]; omega
    | ⟨2, _⟩ =>
      show win2_2.index ⟨6 * (i 0).val + 5, ht⟩ (2 : Fin 3) * 1024 ≤ (i 2).val
        ∧ (i 2).val < win2_2.index ⟨6 * (i 0).val + 5, ht⟩ (2 : Fin 3) * 1024 + 1024
      rw [e2]; omega

/-- THE REGION'S RESULT: the output array ends holding, at (cc, p, q), the sum over core cc's six tiles of the product of
    row p of the first array with row q of the second over the tile's 2048 columns. -/
theorem arr2 (c : Dev nD) (cc : Fin 2) (p : Fin 32) (q : Fin 1024) :
    ((dat2 (F := Ideal) V c).arrAt 2 cfg2.N : S2x32x1024.Idx → EReal) (ix3 cc p q)
      = ∑ i : Fin 6, ∑ k : Fin 2048, arrL2 V c (ix2 p (col cc i k)) * arrR2 V c (ix2 q (col cc i k)) :=
  (congrFun (arr2_eq V c) (ix3 cc p q)).trans rfl

end Array

end Cert.KernelIdeal.RegionVal

end
-- ==== Proof.Bridge2.lean ====
/-
  Region 2 and the host's sum of its two partial results, against the reference's backward contraction. Region 2
  leaves, for each of the two cores cc, the sum over its six column tiles i and the 2048 positions k of a tile of
  g[p, col]·W2[q, col] with col = 2048·(6·cc + i) + k; the host then adds the two cores' arrays starting from zero.
  The columns col(cc, i, k) run exactly once through all 24576 columns, so the total is the sum over every column j
  of g[p,j]·W2[q,j] — the reference's dot_general contracting both second axes. A regrouping of one finite sum: no
  finiteness is needed.
-/
import proofs.«115412_j46059229282940_2_alg».proof.Proof.Gen.ReferenceIdeal.Read
import proofs.«115412_j46059229282940_2_alg».proof.Proof.RefReal
import proofs.«115412_j46059229282940_2_alg».proof.Proof.RegionVal2
import proofs.«115412_j46059229282940_2_alg».proof.Proof.RegionVal2Sum
import proofs.«115412_j46059229282940_2_alg».proof.Proof.LibRowsContract
import Idealize.ShloMosaic.Lib.ValueIdx

noncomputable section

namespace Cert.Bridge2

open Idealize.ShloMosaic Idealize.ShloMosaic.ValueIdx Idealize.ShloMosaic.SoftmaxUnit

variable
  (x0 : (⟨Cert.ReferenceIdeal.S32x8192x3, .f32⟩ : BufTy).Contents (Elt Ideal))
  (x1 : (⟨Cert.ReferenceIdeal.S8192x16, .i32⟩ : BufTy).Contents (Elt Ideal))
  (x2 : (⟨Cert.ReferenceIdeal.S8192, .i32⟩ : BufTy).Contents (Elt Ideal))
  (x3 : (⟨Cert.ReferenceIdeal.S8192x16, .f32⟩ : BufTy).Contents (Elt Ideal))
  (x4 : (⟨Cert.ReferenceIdeal.S32x256, .f32⟩ : BufTy).Contents (Elt Ideal))
  (x5 : (⟨Cert.ReferenceIdeal.S256x1024, .f32⟩ : BufTy).Contents (Elt Ideal))
  (x6 : (⟨Cert.ReferenceIdeal.S1024, .f32⟩ : BufTy).Contents (Elt Ideal))
  (x7 : (⟨Cert.ReferenceIdeal.S1024x24576, .f32⟩ : BufTy).Contents (Elt Ideal))
  (x8 : (⟨Cert.ReferenceIdeal.S24576, .f32⟩ : BufTy).Contents (Elt Ideal))

/-- The gradient with respect to the activations: the host's sum over the two cores of region 2's partial sums is
    the reference's contraction of the flattened cotangent with W2 over all 24576 columns. -/
theorem dh_bridge (h' : Cert.KernelIdeal.S2x32x1024.ReducesTo [0] Cert.KernelIdeal.S32x1024)
    (hS : 0 < Cert.KernelIdeal.S_.numel) :
    Host.reduceAdd (F := Ideal)
        (Cert.KernelIdeal.RegionVal.G2 (Cert.ReferenceIdeal.Read.val_main_v76 (F := Ideal) x0 x1 x2 x3 x4 x5 x6 x7 x8) x7)
        (constant Cert.KernelIdeal.S_ .f32 0x00000000#32) h' hS
      = Cert.ReferenceIdeal.Read.val_main_v77 (F := Ideal) x0 x1 x2 x3 x4 x5 x6 x7 x8 := by
  funext i
  obtain ⟨p, q, rfl⟩ : ∃ (p : Fin 32) (q : Fin 1024), i = ix2 p q := ⟨i 0, i 1, eq_ix2 i⟩
  simp only [Host.reduceAdd, Ideal.hostReduceAdd_def]
  rw [Ideal.hostReduceAdd_single h' (by decide)]
  refine Eq.trans ?_ (Cert.LibRowsContract.dotGeneral_rows_apply 32 24576 1024 _ none _
    (Cert.ReferenceIdeal.Read.val_main_v76 (F := Ideal) x0 x1 x2 x3 x4 x5 x6 x7 x8) x7 p q).symm
  refine Eq.trans ?_ (Cert.KernelIdeal.RegionVal.regroup
    (fun p j => Cert.ReferenceIdeal.Read.val_main_v76 (F := Ideal) x0 x1 x2 x3 x4 x5 x6 x7 x8 (ix2 p j))
    (fun q j => x7 (ix2 q j)) p q)
  refine congrArg₂ (fun a b : EReal => a + b) ?_ (Finset.sum_congr rfl fun cc _ => ?_)
  · exact Ideal.ofBits_zero_f32
  · exact (congrArg (Cert.KernelIdeal.RegionVal.G2 _ _) (funext fun a => Fin.ext (by
      match a with | ⟨0, _⟩ => rfl | ⟨1, _⟩ => rfl | ⟨2, _⟩ => rfl))).trans
      (Cert.KernelIdeal.RegionVal.G2_apply _ _ cc p q)

end Cert.Bridge2

end
-- ==== Proof.RegionVal3.lean ====
/-
  Region 3 (the first layer, backward): the output array after the region, read at an index.

  The region's grid is a single point and every window's block is its whole array. The body masks the incoming
  gradient by the sign of the activations (1 where an activation is positive, 0 elsewhere) and multiplies the masked
  gradient's rows against the rows of the weights: entry (p, q) is the sum over k of g[p, k] · [0 < h[p, k]] · w[q, k].
-/
import proofs.«115412_j46059229282940_2_alg».proof.Proof.Gen.KernelIdeal.Frame
import proofs.«115412_j46059229282940_2_alg».proof.Proof.LibRowsContract
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The mask of one activation: "greater than zero", widened to a word and converted, is 1 where the activation is
    positive and 0 elsewhere. -/
theorem mask3_apply (a : EReal) :
    (FloatOps.sitofp (F := Ideal) .f32
        ((FloatOps.cmpf .ogt (a : Ideal .f32) (Scalar.ofBits .f32 0x00000000#32 : Ideal .f32)).setWidth 32) : Ideal .f32)
      = if (0 : EReal) < a then (1 : EReal) else 0 := by
  show ((((BitVec.ofBool (decide ((Ideal.ofBits .f32 0x00000000#32 : EReal) < a))).setWidth 32).toInt : ℝ) : EReal) = _
  rw [Ideal.ofBits_zero_f32]
  by_cases h : (0 : EReal) < a
  · have e : ((BitVec.ofBool (decide ((0 : EReal) < a))).setWidth 32).toInt = 1 := by
      rw [decide_eq_true h]; decide
    rw [e, if_pos h]; simp
  · have e : ((BitVec.ofBool (decide ((0 : EReal) < a))).setWidth 32).toInt = 0 := by
      rw [decide_eq_false h]; decide
    rw [e, if_neg h]; simp

/-- The masked gradient at entry (p, k): the gradient where the activation is positive, zero elsewhere. -/
theorem masked3_apply (act : Vec Ideal S32x1024 .f32) (grad : Vec Ideal S32x1024 .f32) (p : Fin 32) (k : Fin 1024) :
    mulf (shapeCast S32x1024 grad shapeCasts_S32x1024_S32x1024)
      (sitofp (F := Ideal) .f32 (extui 32 (cmpf .ogt (shapeCast S32x1024 act shapeCasts_S32x1024_S32x1024)
        (broadcast S32x1024 (Scalar.ofBits .f32 0x00000000#32 : Ideal .f32))) natLt_1_32)) (ix2 p k)
      = grad (ix2 p k) * (if (0 : EReal) < act (ix2 p k) then (1 : EReal) else 0) := by
  rw [shapeCast_self, shapeCast_self]
  exact congrArg (fun m => grad (ix2 p k) * m) (mask3_apply (act (ix2 p k)))

/-- The product of rows into the zero accumulator at entry (p, q), for this region's dimension numbers. -/
theorem rows3_apply (l : FVec Ideal S32x1024 .bf16) (r : FVec Ideal S256x1024 .bf16) (p : Fin 32) (q : Fin 256) :
    matmul dot_S32x1024_S256x1024_S32x256_1_1_0_0_n_n none l r (constant (F := Ideal) S32x256 .f32 0x00000000#32) (ix2 p q)
      = ∑ k : Fin 1024, l (ix2 p k) * r (ix2 q k) :=
  Cert.LibRowsContract.matmul_rows_apply 32 1024 256 dot_S32x1024_S256x1024_S32x256_1_1_0_0_n_n_wf none l r p q

/-- The payload at entry (p, q): the masked gradient's row p against the weights' row q. -/
theorem pay3_apply (act : Vec Ideal S32x1024 .f32) (grad : Vec Ideal S32x1024 .f32) (w : Vec Ideal S256x1024 .f32)
    (p : Fin 32) (q : Fin 256) :
    Gen.k3_pay1 (F := Ideal) act grad w (ix2 p q)
      = ∑ k : Fin 1024, (grad (ix2 p k) * (if (0 : EReal) < act (ix2 p k) then (1 : EReal) else 0)) * w (ix2 q k) := by
  have hm := rows3_apply
    (truncf .bf16 (mulf (shapeCast S32x1024 grad shapeCasts_S32x1024_S32x1024)
      (sitofp (F := Ideal) .f32 (extui 32 (cmpf .ogt (shapeCast S32x1024 act shapeCasts_S32x1024_S32x1024)
        (broadcast S32x1024 (Scalar.ofBits .f32 0x00000000#32 : Ideal .f32))) natLt_1_32))) bitsLt_bf16_f32)
    (truncf .bf16 w bitsLt_bf16_f32) p q
  have hs : (∑ k : Fin 1024,
      (truncf .bf16 (mulf (shapeCast S32x1024 grad shapeCasts_S32x1024_S32x1024)
        (sitofp (F := Ideal) .f32 (extui 32 (cmpf .ogt (shapeCast S32x1024 act shapeCasts_S32x1024_S32x1024)
          (broadcast S32x1024 (Scalar.ofBits .f32 0x00000000#32 : Ideal .f32))) natLt_1_32))) bitsLt_bf16_f32 : FVec Ideal S32x1024 .bf16) (ix2 p k)
        * (truncf .bf16 w bitsLt_bf16_f32 : FVec Ideal S256x1024 .bf16) (ix2 q k))
      = ∑ k : Fin 1024, (grad (ix2 p k) * (if (0 : EReal) < act (ix2 p k) then (1 : EReal) else 0)) * w (ix2 q k) :=
    Finset.sum_congr rfl fun k _ => congrArg (fun m => m * w (ix2 q k)) (masked3_apply act grad p k)
  unfold Gen.k3_pay1
  exact hm.trans hs

theorem zeros2_r3 : (![0, 0] : Fin 2 → Nat) = fun _ => 0 := funext fun a => by fin_cases a <;> rfl

/-- The array the region leaves, entry by entry: the incoming gradient masked by the activations' sign, against the
    rows of the weights. -/
def G3 (g : S32x1024.Idx → EReal) (act : S32x1024.Idx → EReal) (w : S256x1024.Idx → EReal) : S32x256.Idx → EReal :=
  fun i => ∑ k : Fin 1024, (g (ix2 (i 0) k) * (if (0 : EReal) < act (ix2 (i 0) k) then (1 : EReal) else 0)) * w (ix2 (i 1) k)

/-- Every window's block index is zero on both axes at every point of the grid. -/
theorem idx_zero3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Window 0's block is the whole array (the incoming gradient). -/
theorem blk3_0 (c : Dev nD) (t : Fin cfg3.N) : (Gen.iblk3 V c 0 t : Vec Ideal S32x1024 .f32) = V c main_call0_v60 := by
  obtain ⟨e0, e1, -⟩ := idx_zero3 t
  funext y
  show V c main_call0_v60 (((cfg3.win 0).blk t).view.emb y) = V c main_call0_v60 y
  refine congrArg (V c main_call0_v60) (funext fun a => Fin.ext ?_)
  match a with
  | ⟨0, _⟩ => show win3_0.index t (0 : Fin 2) * 32 + 1 * (y 0).val = (y 0).val; omega
  | ⟨1, _⟩ => show win3_0.index t (1 : Fin 2) * 1024 + 1 * (y 1).val = (y 1).val; omega

/-- Window 1's block is the whole array (the activations). -/
theorem blk3_1 (c : Dev nD) (t : Fin cfg3.N) : (Gen.iblk3 V c 1 t : Vec Ideal S32x1024 .f32) = V c main_call0_v1 := by
  obtain ⟨-, -, e0, e1, -⟩ := idx_zero3 t
  funext y
  show V c main_call0_v1 (((cfg3.win 1).blk t).view.emb y) = V c main_call0_v1 y
  refine congrArg (V c main_call0_v1) (funext fun a => Fin.ext ?_)
  match a with
  | ⟨0, _⟩ => show win3_1.index t (0 : Fin 2) * 32 + 1 * (y 0).val = (y 0).val; omega
  | ⟨1, _⟩ => show win3_1.index t (1 : Fin 2) * 1024 + 1 * (y 1).val = (y 1).val; omega

/-- Window 2's block is the whole array (the weights). -/
theorem blk3_2 (c : Dev nD) (t : Fin cfg3.N) : (Gen.iblk3 V c 2 t : Vec Ideal S256x1024 .f32) = V c main_arg5 := by
  obtain ⟨-, -, -, -, e0, e1, -⟩ := idx_zero3 t
  funext y
  show V c main_arg5 (((cfg3.win 2).blk t).view.emb y) = V c main_arg5 y
  refine congrArg (V c main_arg5) (funext fun a => Fin.ext ?_)
  match a with
  | ⟨0, _⟩ => show win3_2.index t (0 : Fin 2) * 256 + 1 * (y 0).val = (y 0).val; omega
  | ⟨1, _⟩ => show win3_2.index t (1 : Fin 2) * 1024 + 1 * (y 1).val = (y 1).val; omega

/-- What the one point writes back is the block of `G3` of the arrays the region finds. -/
theorem flushed3_eq (c : Dev nD) (t : Fin cfg3.N) :
    (Gen.dat3 (F := Ideal) V c).flushed 3 t
      = ((cfg3.win 3).blk t).view.read (Elt Ideal) (G3 (V c main_call0_v60) (V c main_call0_v1) (V c main_arg5)) := by
  show (cfg3.win 3).cut (grid3.coords t) ((Gen.dat3 V c).after 3 t) = _
  rw [Gen.after3_3]
  unfold Gen.out3_3
  rw [View.canon_unit_zero zeros2_r3]
  simp only [View.ld_unit_zero (S := S32x1024) zeros2_r3, View.ld_unit_zero (S := S256x1024) zeros2_r3]
  rw [blk3_0 V c t, blk3_1 V c t, blk3_2 V c t]
  refine funext fun (j : S32x256.Idx) => ?_
  obtain ⟨p, q, rfl⟩ : ∃ (p : Fin 32) (q : Fin 256), j = ix2 p q := ⟨j 0, j 1, eq_ix2 j⟩
  obtain ⟨-, -, -, -, -, -, e6, e7⟩ := idx_zero3 t
  show Gen.k3_pay1 (F := Ideal) (V c main_call0_v1) (V c main_call0_v60) (V c main_arg5) (ix2 p q)
    = G3 (V c main_call0_v60) (V c main_call0_v1) (V c main_arg5) (((cfg3.win 3).blk t).view.emb (ix2 p q))
  have hemb : (((cfg3.win 3).blk t).view.emb (ix2 p q) : S32x256.Idx) = ix2 p q := by
    funext a; apply Fin.ext
    match a with
    | ⟨0, _⟩ => show win3_3.index t (0 : Fin 2) * 32 + 1 * p.val = p.val; omega
    | ⟨1, _⟩ => show win3_3.index t (1 : Fin 2) * 256 + 1 * q.val = q.val; omega
  rw [hemb]
  exact pay3_apply (V c main_call0_v1) (V c main_call0_v60) (V c main_arg5) p q

/-- An index of the array is in the point's block iff each coordinate is in the block's range on its axis. -/
theorem mem_blk3 (t : Fin cfg3.N) (i : S32x256.Idx) :
    i ∈ ((cfg3.win 3).blk t).view.set ↔ ∀ a : Fin 2, win3_3.index t a * S32x256.size a ≤ (i a).val ∧ (i a).val < win3_3.index t a * S32x256.size a + S32x256.size a := by
  show i ∈ ((View.whole main_v0_1).slice (win3_3.rect t)).set ↔ _
  rw [View.set_slice_whole, Rect.mem_set_unit]
  exact Iff.rfl

/-- The one point's block covers the array. -/
theorem cover3 (i : S32x256.Idx) :
    ∃ t : Fin cfg3.N, (cfg3.win 3).flush t = true ∧ i ∈ ((cfg3.win 3).blk t).view.set := by
  refine ⟨t3_0, flush3_3 t3_0, ?_⟩
  rw [mem_blk3]
  obtain ⟨-, -, -, -, -, -, e6, e7⟩ := idx_zero3 t3_0
  have h0 : (i 0).val < 32 := idx2_lt0 i
  have h1 : (i 1).val < 256 := idx2_lt1 i
  intro a
  match a with
  | ⟨0, _⟩ => show win3_3.index t3_0 (0 : Fin 2) * 32 ≤ (i 0).val ∧ (i 0).val < win3_3.index t3_0 (0 : Fin 2) * 32 + 32; omega
  | ⟨1, _⟩ => show win3_3.index t3_0 (1 : Fin 2) * 256 ≤ (i 1).val ∧ (i 1).val < win3_3.index t3_0 (1 : Fin 2) * 256 + 256; omega

/-- The output array after the region is `G3` of the arrays the region finds. -/
theorem arr3_eq (c : Dev nD) :
    (Gen.dat3 (F := Ideal) V c).arrAt 3 cfg3.N = G3 (V c main_call0_v60) (V c main_call0_v1) (V c main_arg5) :=
  (Gen.dat3 (F := Ideal) V c).arrAt_eq_of_cover 3 (G3 (V c main_call0_v60) (V c main_call0_v1) (V c main_arg5))
    (fun t _ => flushed3_eq V c t) cover3

/-- `G3` at entry (p, q). -/
theorem G3_apply (g : S32x1024.Idx → EReal) (act : S32x1024.Idx → EReal) (w : S256x1024.Idx → EReal) (p : Fin 32) (q : Fin 256) :
    G3 g act w (ix2 p q)
      = ∑ k : Fin 1024, (g (ix2 p k) * (if (0 : EReal) < act (ix2 p k) then (1 : EReal) else 0)) * w (ix2 q k) := rfl

/-- The output array after the region, at entry (p, q). -/
theorem arr3 (c : Dev nD) (p : Fin 32) (q : Fin 256) :
    (Gen.dat3 (F := Ideal) V c).arrAt 3 cfg3.N (ix2 p q)
      = G3 (V c main_call0_v60) (V c main_call0_v1) (V c main_arg5) (ix2 p q) :=
  congrFun (arr3_eq V c) (ix2 p q)

end Cert.KernelIdeal.RegionVal

end
-- ==== Proof.Bridge3.lean ====
/-
  Region 3 against the reference's last two operations. Region 3 leaves, at entry (p, q), the sum over k of
  (g[p,k] · [h[p,k] > 0]) · W1[q,k], the bracket being 1 or 0. The reference selects g[p,k] where the
  pre-activation is positive and zero elsewhere, and contracts with W1 over both second axes. Since h is the maximum
  of the pre-activation and zero, h > 0 exactly where the pre-activation is positive, and g·1 = g, g·0 = 0 for every
  extended real g: the two summands agree term by term.
-/
import proofs.«115412_j46059229282940_2_alg».proof.Proof.Gen.ReferenceIdeal.Read
import proofs.«115412_j46059229282940_2_alg».proof.Proof.RefReal
import proofs.«115412_j46059229282940_2_alg».proof.Proof.RegionVal3
import proofs.«115412_j46059229282940_2_alg».proof.Proof.LibRowsContract
import proofs.«115412_j46059229282940_2_alg».proof.Proof.DiffLaw
import Idealize.ShloMosaic.Lib.ValueIdx

noncomputable section

namespace Cert.Bridge3

open Idealize.ShloMosaic Idealize.ShloMosaic.ValueIdx Idealize.ShloMosaic.SoftmaxUnit

variable
  (x0 : (⟨Cert.ReferenceIdeal.S32x8192x3, .f32⟩ : BufTy).Contents (Elt Ideal))
  (x1 : (⟨Cert.ReferenceIdeal.S8192x16, .i32⟩ : BufTy).Contents (Elt Ideal))
  (x2 : (⟨Cert.ReferenceIdeal.S8192, .i32⟩ : BufTy).Contents (Elt Ideal))
  (x3 : (⟨Cert.ReferenceIdeal.S8192x16, .f32⟩ : BufTy).Contents (Elt Ideal))
  (x4 : (⟨Cert.ReferenceIdeal.S32x256, .f32⟩ : BufTy).Contents (Elt Ideal))
  (x5 : (⟨Cert.ReferenceIdeal.S256x1024, .f32⟩ : BufTy).Contents (Elt Ideal))
  (x6 : (⟨Cert.ReferenceIdeal.S1024, .f32⟩ : BufTy).Contents (Elt Ideal))
  (x7 : (⟨Cert.ReferenceIdeal.S1024x24576, .f32⟩ : BufTy).Contents (Elt Ideal))
  (x8 : (⟨Cert.ReferenceIdeal.S24576, .f32⟩ : BufTy).Contents (Elt Ideal))

/-- The reference's selected gradient at an entry: the gradient where the pre-activation is positive, else zero. -/
theorem select_apply (i : Cert.ReferenceIdeal.S32x1024.Idx) :
    Cert.ReferenceIdeal.Read.val_main_v79 (F := Ideal) x0 x1 x2 x3 x4 x5 x6 x7 x8 i
      = if (0 : EReal) < Cert.ReferenceIdeal.Read.val_main_v3 (F := Ideal) x4 x5 x6 i
        then Cert.ReferenceIdeal.Read.val_main_v77 (F := Ideal) x0 x1 x2 x3 x4 x5 x6 x7 x8 i else 0 := by
  rw [Cert.ReferenceIdeal.Read.val_main_v79_apply, Cert.ReferenceIdeal.Read.val_main_v6_apply,
    Cert.ReferenceIdeal.Read.val_main_v5_apply, Cert.ReferenceIdeal.Read.val_main_cst_apply,
    Cert.ReferenceIdeal.Read.val_main_v78_apply, Cert.ReferenceIdeal.Read.val_main_cst_17_apply]
  show Scalar.select (Ideal.cmp .ogt _ (Ideal.ofBits .f32 0x00000000#32)) _ (Ideal.ofBits .f32 0x00000000#32) = _
  rw [Ideal.ofBits_zero_f32]
  by_cases h : (0 : EReal) < Cert.ReferenceIdeal.Read.val_main_v3 (F := Ideal) x4 x5 x6 i
  · simp [Scalar.select, Ideal.cmp, h]
  · simp [Scalar.select, Ideal.cmp, h]

/-- The code gradient region 3 leaves, from the reference's gradient with respect to the activations and the
    reference's activations, is the reference's. -/
theorem grad_bridge :
    Cert.KernelIdeal.RegionVal.G3 (Cert.ReferenceIdeal.Read.val_main_v77 (F := Ideal) x0 x1 x2 x3 x4 x5 x6 x7 x8)
        (Cert.ReferenceIdeal.Read.val_main_v4 (F := Ideal) x4 x5 x6) x5
      = Cert.ReferenceIdeal.Read.val_main_v80 (F := Ideal) x0 x1 x2 x3 x4 x5 x6 x7 x8 := by
  funext i
  obtain ⟨p, q, rfl⟩ : ∃ (p : Fin 32) (q : Fin 256), i = ix2 p q := ⟨i 0, i 1, eq_ix2 i⟩
  rw [Cert.KernelIdeal.RegionVal.G3_apply]
  refine Eq.trans ?_ (Cert.LibRowsContract.dotGeneral_rows_apply 32 1024 256 _ none _
    (Cert.ReferenceIdeal.Read.val_main_v79 (F := Ideal) x0 x1 x2 x3 x4 x5 x6 x7 x8) x5 p q).symm
  refine Finset.sum_congr rfl fun k _ => ?_
  refine congrArg (fun t : EReal => t * x5 (ix2 q k)) ?_
  rw [Cert.RefReal.act_eq_max, Cert.DiffLaw.mask_mul, select_apply]

end Cert.Bridge3

end
-- ==== Proof.Boundary.lean ====
/-
  The idealized kernel's run, boundary by boundary, in the reference's terms. Let a0 … a8 be the nine argument
  arrays at launch. Walking @main forward:
    * region 0 leaves the reference's activations h = max(code·W1 + b1, 0);
    * region 1, reading h, W2 and the re-laid bias, leaves the reference's flat reconstruction h·W2 + b2;
    * the third host stretch turns it (on real inputs) into the reference's mean energy and the reference's
      flattened cotangent of the reconstruction;
    * region 2 and the host's sum over its two partial arrays leave the reference's gradient with respect to h,
      the contraction of that cotangent with W2;
    * region 3, reading that gradient, h and W1, leaves the reference's code gradient.
  So at the last boundary the two result buffers hold the reference's two results.
-/
import proofs.«115412_j46059229282940_2_alg».proof.Proof.Walk
import proofs.«115412_j46059229282940_2_alg».proof.Proof.Host2
import proofs.«115412_j46059229282940_2_alg».proof.Proof.Bridge0
import proofs.«115412_j46059229282940_2_alg».proof.Proof.Bridge1
import proofs.«115412_j46059229282940_2_alg».proof.Proof.Bridge2
import proofs.«115412_j46059229282940_2_alg».proof.Proof.Bridge3
import Idealize.ShloMosaic.Lib.StableHlo.Run

set_option maxRecDepth 16384

noncomputable section

namespace Cert.KernelIdeal.Boundary

open Cert.KernelIdeal Cert.KernelIdeal.Gen Cert.KernelIdeal.Walk Cert.KernelIdeal.RegionVal
open Idealize.ShloMosaic Idealize.ShloMosaic.TcCoe Idealize.ShloMosaic.StableHlo Idealize.ShloMosaic.SoftmaxUnit
open Idealize.SL Idealize.SL.Sem

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)

/-- The first bias, re-laid by the host as a one-row matrix before region 0. -/
theorem W1_v0 : W1 m ρ c (Proc.devRef .tc main_call0_v0) = shapeCast S1x1024 a6 shapeCasts_S1024_S1x1024 := by
  show StableHlo.after hostOps0 _ (Proc.devRef .tc main_call0_v0) = _
  after_results
  rfl

/-- Region 0 leaves the reference's activations. -/
theorem arr0_val : (dat0 (F := Ideal) (V1 m ρ) c).arrAt 3 cfg0.N
    = Cert.ReferenceIdeal.Read.val_main_v4 (F := Ideal) a4 a5 a6 := by
  rw [arr0_eq (V1 m ρ) c]
  have e4 : (V1 m ρ c main_arg4 : S32x256.Idx → EReal) = a4 := W1_arg4 m ρ c
  have e5 : (V1 m ρ c main_arg5 : S256x1024.Idx → EReal) = a5 := W1_arg5 m ρ c
  have e0 : (V1 m ρ c main_call0_v0 : S1x1024.Idx → EReal) = shapeCast S1x1024 a6 shapeCasts_S1024_S1x1024 :=
    W1_v0 m ρ c
  rw [e4, e5, e0]
  exact Cert.Bridge0.act_bridge a4 a5 a6 _

/-- The second bias, re-laid by the host as a one-row matrix before region 1. -/
theorem W3_v2 : W3 m ρ c (Proc.devRef .tc main_call0_v2) = shapeCast S1x24576 a8 shapeCasts_S24576_S1x24576 := by
  have e : W3 m ρ c (Proc.devRef .tc main_call0_v2)
      = shapeCast S1x24576 (W2 m ρ c (Proc.devRef .tc main_arg8)) shapeCasts_S24576_S1x24576 := by
    show StableHlo.after hostOps1 _ (Proc.devRef .tc main_call0_v2) = _
    after_results
    rfl
  rw [e, W2_arg8 m ρ c]

/-- Region 1 leaves the reference's flat reconstruction. -/
theorem arr1_val : (dat1 (F := Ideal) (V3 m ρ) c).arrAt 3 cfg1.N
    = Cert.ReferenceIdeal.Read.val_main_v11 (F := Ideal) a4 a5 a6 a7 a8 := by
  rw [arr1_eq (V3 m ρ) c]
  have e1 : (V3 m ρ c main_call0_v1 : S32x1024.Idx → EReal)
      = Cert.ReferenceIdeal.Read.val_main_v4 (F := Ideal) a4 a5 a6 :=
    ((W3_v1 m ρ c).trans (W2_arr m ρ c 3)).trans (arr0_val m ρ c)
  have e7 : (V3 m ρ c main_arg7 : S1024x24576.Idx → EReal) = a7 := W3_arg7 m ρ c
  have e2 : (V3 m ρ c main_call0_v2 : S1x24576.Idx → EReal) = shapeCast S1x24576 a8 shapeCasts_S24576_S1x24576 :=
    W3_v2 m ρ c
  rw [e1, e7, e2]
  exact Cert.Bridge1.flat_bridge a4 a5 a6 a7 a8 _

section Real

/-- On real inputs the third host stretch leaves the reference's mean energy. -/
theorem W5_energy
    (h0 : ∀ i : S32x8192x3.Idx, IsReal ((a0 : S32x8192x3.Idx → EReal) i))
    (h4 : ∀ i : S32x256.Idx, IsReal ((a4 : S32x256.Idx → EReal) i))
    (h5 : ∀ i : S256x1024.Idx, IsReal ((a5 : S256x1024.Idx → EReal) i))
    (h6 : ∀ i : S1024.Idx, IsReal ((a6 : S1024.Idx → EReal) i))
    (h7 : ∀ i : S1024x24576.Idx, IsReal ((a7 : S1024x24576.Idx → EReal) i))
    (h8 : ∀ i : S24576.Idx, IsReal ((a8 : S24576.Idx → EReal) i)) : W5 m ρ c (Proc.devRef .tc main_v0_0)
    = Cert.ReferenceIdeal.Read.val_main_v54 (F := Ideal) a0 a1 a2 a3 a4 a5 a6 a7 a8 :=
  Cert.Host2.host2_energy (W4 m ρ c) a0 a1 a2 a3 a4 a5 a6 a7 a8
    ((W4_arr m ρ c 3).trans (arr1_val m ρ c)) (W4_arg0 m ρ c) (W4_arg1 m ρ c) (W4_arg2 m ρ c) (W4_arg3 m ρ c)
    (Cert.RefReal.recon_real a4 a5 a6 a7 a8 h4 h5 h6 h7 h8) h0

/-- On real inputs the third host stretch leaves the reference's flattened cotangent of the reconstruction. -/
theorem W5_dflat
    (h0 : ∀ i : S32x8192x3.Idx, IsReal ((a0 : S32x8192x3.Idx → EReal) i))
    (h4 : ∀ i : S32x256.Idx, IsReal ((a4 : S32x256.Idx → EReal) i))
    (h5 : ∀ i : S256x1024.Idx, IsReal ((a5 : S256x1024.Idx → EReal) i))
    (h6 : ∀ i : S1024.Idx, IsReal ((a6 : S1024.Idx → EReal) i))
    (h7 : ∀ i : S1024x24576.Idx, IsReal ((a7 : S1024x24576.Idx → EReal) i))
    (h8 : ∀ i : S24576.Idx, IsReal ((a8 : S24576.Idx → EReal) i)) : W5 m ρ c (Proc.devRef .tc main_call0_v58)
    = Cert.ReferenceIdeal.Read.val_main_v76 (F := Ideal) a0 a1 a2 a3 a4 a5 a6 a7 a8 :=
  Cert.Host2.host2_dflat (W4 m ρ c) a0 a1 a2 a3 a4 a5 a6 a7 a8
    ((W4_arr m ρ c 3).trans (arr1_val m ρ c)) (W4_arg0 m ρ c) (W4_arg1 m ρ c) (W4_arg2 m ρ c) (W4_arg3 m ρ c)
    (Cert.RefReal.recon_real a4 a5 a6 a7 a8 h4 h5 h6 h7 h8) h0

/-- Region 2 leaves the two cores' partial sums of the reference's cotangent against W2. -/
theorem arr2_val
    (h0 : ∀ i : S32x8192x3.Idx, IsReal ((a0 : S32x8192x3.Idx → EReal) i))
    (h4 : ∀ i : S32x256.Idx, IsReal ((a4 : S32x256.Idx → EReal) i))
    (h5 : ∀ i : S256x1024.Idx, IsReal ((a5 : S256x1024.Idx → EReal) i))
    (h6 : ∀ i : S1024.Idx, IsReal ((a6 : S1024.Idx → EReal) i))
    (h7 : ∀ i : S1024x24576.Idx, IsReal ((a7 : S1024x24576.Idx → EReal) i))
    (h8 : ∀ i : S24576.Idx, IsReal ((a8 : S24576.Idx → EReal) i)) : (dat2 (F := Ideal) (V5 m ρ) c).arrAt 2 cfg2.N
    = G2 (Cert.ReferenceIdeal.Read.val_main_v76 (F := Ideal) a0 a1 a2 a3 a4 a5 a6 a7 a8) a7 := by
  rw [arr2_eq (V5 m ρ) c]
  have e58 : (V5 m ρ c main_call0_v58 : S32x24576.Idx → EReal)
      = Cert.ReferenceIdeal.Read.val_main_v76 (F := Ideal) a0 a1 a2 a3 a4 a5 a6 a7 a8 :=
    W5_dflat m ρ c h0 h4 h5 h6 h7 h8
  have e7 : (V5 m ρ c main_arg7 : S1024x24576.Idx → EReal) = a7 := W5_arg7 m ρ c
  rw [e58, e7]

/-- The host's sum of the two partial arrays is the reference's gradient with respect to the activations. -/
theorem W7_dh
    (h0 : ∀ i : S32x8192x3.Idx, IsReal ((a0 : S32x8192x3.Idx → EReal) i))
    (h4 : ∀ i : S32x256.Idx, IsReal ((a4 : S32x256.Idx → EReal) i))
    (h5 : ∀ i : S256x1024.Idx, IsReal ((a5 : S256x1024.Idx → EReal) i))
    (h6 : ∀ i : S1024.Idx, IsReal ((a6 : S1024.Idx → EReal) i))
    (h7 : ∀ i : S1024x24576.Idx, IsReal ((a7 : S1024x24576.Idx → EReal) i))
    (h8 : ∀ i : S24576.Idx, IsReal ((a8 : S24576.Idx → EReal) i)) : W7 m ρ c (Proc.devRef .tc main_call0_v60)
    = Cert.ReferenceIdeal.Read.val_main_v77 (F := Ideal) a0 a1 a2 a3 a4 a5 a6 a7 a8 := by
  have e : W7 m ρ c (Proc.devRef .tc main_call0_v60)
      = Host.reduceAdd (F := Ideal) (W6 m ρ c (Proc.devRef .tc main_call0_v59))
          (constant S_ .f32 0x00000000#32) reducesTo_S2x32x1024_S32x1024_d0 h_S_ := by
    show StableHlo.after hostOps3 _ (Proc.devRef .tc main_call0_v60) = _
    after_results
    rfl
  rw [e, W6_arr m ρ c 2, arr2_val m ρ c h0 h4 h5 h6 h7 h8]
  exact Cert.Bridge2.dh_bridge a0 a1 a2 a3 a4 a5 a6 a7 a8 _ _

/-- Region 3 leaves the reference's code gradient. -/
theorem arr3_val
    (h0 : ∀ i : S32x8192x3.Idx, IsReal ((a0 : S32x8192x3.Idx → EReal) i))
    (h4 : ∀ i : S32x256.Idx, IsReal ((a4 : S32x256.Idx → EReal) i))
    (h5 : ∀ i : S256x1024.Idx, IsReal ((a5 : S256x1024.Idx → EReal) i))
    (h6 : ∀ i : S1024.Idx, IsReal ((a6 : S1024.Idx → EReal) i))
    (h7 : ∀ i : S1024x24576.Idx, IsReal ((a7 : S1024x24576.Idx → EReal) i))
    (h8 : ∀ i : S24576.Idx, IsReal ((a8 : S24576.Idx → EReal) i)) : (dat3 (F := Ideal) (V7 m ρ) c).arrAt 3 cfg3.N
    = Cert.ReferenceIdeal.Read.val_main_v80 (F := Ideal) a0 a1 a2 a3 a4 a5 a6 a7 a8 := by
  rw [arr3_eq (V7 m ρ) c]
  have e60 : (V7 m ρ c main_call0_v60 : S32x1024.Idx → EReal)
      = Cert.ReferenceIdeal.Read.val_main_v77 (F := Ideal) a0 a1 a2 a3 a4 a5 a6 a7 a8 :=
    W7_dh m ρ c h0 h4 h5 h6 h7 h8
  have e1 : (V7 m ρ c main_call0_v1 : S32x1024.Idx → EReal)
      = Cert.ReferenceIdeal.Read.val_main_v4 (F := Ideal) a4 a5 a6 :=
    ((W7_v1 m ρ c).trans (W2_arr m ρ c 3)).trans (arr0_val m ρ c)
  have e5 : (V7 m ρ c main_arg5 : S256x1024.Idx → EReal) = a5 := W7_arg5 m ρ c
  rw [e60, e1, e5]
  exact Cert.Bridge3.grad_bridge a0 a1 a2 a3 a4 a5 a6 a7 a8

/-- At the last boundary the first result buffer holds the reference's mean energy … -/
theorem W8_energy
    (h0 : ∀ i : S32x8192x3.Idx, IsReal ((a0 : S32x8192x3.Idx → EReal) i))
    (h4 : ∀ i : S32x256.Idx, IsReal ((a4 : S32x256.Idx → EReal) i))
    (h5 : ∀ i : S256x1024.Idx, IsReal ((a5 : S256x1024.Idx → EReal) i))
    (h6 : ∀ i : S1024.Idx, IsReal ((a6 : S1024.Idx → EReal) i))
    (h7 : ∀ i : S1024x24576.Idx, IsReal ((a7 : S1024x24576.Idx → EReal) i))
    (h8 : ∀ i : S24576.Idx, IsReal ((a8 : S24576.Idx → EReal) i)) : W8 m ρ c (Proc.devRef .tc main_v0_0)
    = Cert.ReferenceIdeal.Read.val_main_v54 (F := Ideal) a0 a1 a2 a3 a4 a5 a6 a7 a8 :=
  (W8_v0_0 m ρ c).trans (W5_energy m ρ c h0 h4 h5 h6 h7 h8)

/-- … and the second the reference's code gradient. -/
theorem W8_grad
    (h0 : ∀ i : S32x8192x3.Idx, IsReal ((a0 : S32x8192x3.Idx → EReal) i))
    (h4 : ∀ i : S32x256.Idx, IsReal ((a4 : S32x256.Idx → EReal) i))
    (h5 : ∀ i : S256x1024.Idx, IsReal ((a5 : S256x1024.Idx → EReal) i))
    (h6 : ∀ i : S1024.Idx, IsReal ((a6 : S1024.Idx → EReal) i))
    (h7 : ∀ i : S1024x24576.Idx, IsReal ((a7 : S1024x24576.Idx → EReal) i))
    (h8 : ∀ i : S24576.Idx, IsReal ((a8 : S24576.Idx → EReal) i)) : W8 m ρ c (Proc.devRef .tc main_v0_1)
    = Cert.ReferenceIdeal.Read.val_main_v80 (F := Ideal) a0 a1 a2 a3 a4 a5 a6 a7 a8 :=
  (W8_arr m ρ c 3).trans (arr3_val m ρ c h0 h4 h5 h6 h7 h8)

end Real

end Cert.KernelIdeal.Boundary

end
-- ==== Proof.Finite.lean ====
/-
  The precondition, decoded: every float argument is an array of real numbers.

  The precondition is the conjunction, over the seven float arguments, of "every entry's absolute value is below +∞",
  each printed as a reduction by `and` from 1 of the entrywise comparison |a| < +∞. Over the extended reals |x| is
  max x (−x) and the bit pattern 0x7F800000 reads as ⊤; |x| < ⊤ excludes both infinities, so x is a real number.
-/
import proofs.«115412_j46059229282940_2_alg».proof.Pre_finite_inputs
import proofs.«115412_j46059229282940_2_alg».proof.Proof.LibSoftmaxUnit
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.SoftmaxUnit Cert.Pre_finite_inputs

/-- The scalar shape has one index. -/
instance subsingleton_scalar_idx : Subsingleton S_.Idx := ⟨fun a b => funext fun d => d.elim0⟩

/-- The pattern of +∞ reads as ⊤. -/
theorem ofBits_inf : Ideal.ofBits .f32 0x7F800000#32 = (⊤ : EReal) := by
  simp [Ideal.ofBits, Ideal.ieee]

/-- An extended real whose absolute value is below ⊤ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- One conjunct, over any shape: if the reduction by `and` of the comparison |a| < +∞ is 1, every entry of `a` is real. -/
theorem reals_of_all {s : Shape} {axes : List (Fin s.rank)} (a : FVec Ideal s .f32) (dims : Fin S_.rank → Fin s.rank)
    (hb : S_.BroadcastsInDim s dims) (hr : s.ReducesTo axes S_) (hu : 0 < S_.numel)
    (e : Host.reduce IntOp.andi
          (cmpf .olt (Host.absf a) (broadcastInDim s dims hb (constant (F := Ideal) S_ .f32 0x7F800000#32)))
          (constantI S_ 1 1#1) hr hu ValueIdx.ix0 = 1#1) :
    ∀ i, IsReal (a i) := by
  intro i
  have h1 := Host.reduce_andi_all _ _ hr hu ValueIdx.ix0 e i
  have h2 : Ideal.cmp .olt (max (a i) (-(a i))) (Ideal.ofBits .f32 0x7F800000#32) = 1#1 := h1
  rw [ofBits_inf] at h2
  refine isReal_of_abs_lt_top (a i) ?_
  by_contra hn
  have : Ideal.cmp .olt (max (a i) (-(a i))) ⊤ = 0#1 := by
    unfold Ideal.cmp
    simp only [decide_eq_false hn]
    rfl
  rw [this] at h2
  exact absurd h2 (by decide)

/-- THE PRECONDITION READ: each of the seven float arguments has only real entries (the two integer arguments are
    unconstrained). -/
theorem reals_of_pre [Cert.Pre_finite_inputs.Facts] (a0 : FVec Ideal S32x8192x3 .f32) (a1 : IVec S8192x16 32) (a2 : IVec S8192 32)
    (a3 : FVec Ideal S8192x16 .f32) (a4 : FVec Ideal S32x256 .f32) (a5 : FVec Ideal S256x1024 .f32) (a6 : FVec Ideal S1024 .f32)
    (a7 : FVec Ideal S1024x24576 .f32) (a8 : FVec Ideal S24576 .f32)
    (h : Cert.Pre_finite_inputs.fn (F := Ideal) a0 a1 a2 a3 a4 a5 a6 a7 a8 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) := by
  have h0 := congrFun h ValueIdx.ix0
  dsimp only [Cert.Pre_finite_inputs.fn, Cert.Pre_finite_inputs.fn_part1] at h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨e0, e3⟩ := IntOp.andi_eq_one.mp h0
  exact ⟨reals_of_all a0 _ _ _ _ e0, reals_of_all a3 _ _ _ _ e3, reals_of_all a4 _ _ _ _ e4, reals_of_all a5 _ _ _ _ e5,
    reals_of_all a6 _ _ _ _ e6, reals_of_all a7 _ _ _ _ e7, reals_of_all a8 _ _ _ _ e8⟩

end Cert.Finite

end
-- ==== Proof.lean ====
/-
  The certificate of the energy kernel against its reference: for every launch memory whose float inputs are finite,
  the two programs end with equal mean energies and equal code gradients, as extended reals, entry by entry.

  The mathematics. Both programs decode a code vector by a two-layer perceptron into a point cloud y (the
  reconstruction), compare the edge vectors of y with those of the given cloud x over a neighbour table, average the
  weighted squared deviations over the valid neighbours into one energy per batch entry, and return that energy
  with its gradient with respect to the code. They differ in three places, none of which changes a value:
    * the kernel runs the two layers, and their two transposes on the way back, as four pipelined regions with
      bf16-typed operands — at the ideal instance a change of float format is the identity, and a tiled or
      per-core-split contraction is a regrouping of one finite sum;
    * the kernel gathers d = y - x once and takes d_i - d_j where the reference takes (y_i - y_j) - (x_i - x_j) — on
      real entries these agree, and finite inputs make every entry of y and x real;
    * the kernel masks the rectifier's gradient by h > 0 and the reference by (pre-activation) > 0 — equivalent since
      h is the maximum of the pre-activation and zero.
  Every other operation is the same operation on both sides.

  The frames of the two kernel programs are the generated ones; the reference's frame is its generated run with the
  results dropped; the ideal pass rewrote nothing, so there is nothing to preserve. For the value claim the
  kernel's run is read at its last segment boundary (RunNamed, Boundary) and the reference's through its generated
  run; both results are stated as the reference's own stages of the launch arrays.
-/
import proofs.«115412_j46059229282940_2_alg».proof.Defs
import proofs.«115412_j46059229282940_2_alg».proof.Proof.Gen.Kernel
import proofs.«115412_j46059229282940_2_alg».proof.Proof.Gen.Kernel.Skeleton
import proofs.«115412_j46059229282940_2_alg».proof.Proof.Gen.Kernel.Launch
import proofs.«115412_j46059229282940_2_alg».proof.Proof.Gen.Kernel.Points
import proofs.«115412_j46059229282940_2_alg».proof.Proof.Gen.Kernel.Frame
import proofs.«115412_j46059229282940_2_alg».proof.Proof.Gen.KernelIdeal
import proofs.«115412_j46059229282940_2_alg».proof.Proof.Gen.KernelIdeal.Skeleton
import proofs.«115412_j46059229282940_2_alg».proof.Proof.Gen.KernelIdeal.Launch
import proofs.«115412_j46059229282940_2_alg».proof.Proof.Gen.KernelIdeal.Points
import proofs.«115412_j46059229282940_2_alg».proof.Proof.Gen.KernelIdeal.Frame
import proofs.«115412_j46059229282940_2_alg».proof.Proof.Gen.ReferenceIdeal
import proofs.«115412_j46059229282940_2_alg».proof.Proof.Gen.ReferenceIdeal.Run
import proofs.«115412_j46059229282940_2_alg».proof.Proof.Gen.ReferenceIdeal.Read
import proofs.«115412_j46059229282940_2_alg».proof.Proof.Gen.Pre_finite_inputs
import proofs.«115412_j46059229282940_2_alg».proof.Proof.RunNamed
import proofs.«115412_j46059229282940_2_alg».proof.Proof.Boundary
import proofs.«115412_j46059229282940_2_alg».proof.Proof.Finite
import Idealize.ShloMosaic.Adequacy
import Idealize.ShloMosaic.Init

noncomputable section

namespace Cert.Proof

open Idealize.ShloMosaic Idealize.ShloMosaic.TcCoe Idealize.SL.Sem

/-- Run from launch memories that agree on the nine arguments, the idealized kernel and the idealized reference end
    with the same two results: the reference's mean energy and code gradient of the launch arrays. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.RunVal.run_named (F := Ideal) m ρ)
    obtain ⟨r0, _, r4, r5, r6, r7, r8⟩ := Cert.Finite.reals_of_pre _ _ _ _ _ _ _ _ _ (hpre c)
    exact ⟨(h c).1.trans (Cert.KernelIdeal.Boundary.W8_energy m ρ c r0 r4 r5 r6 r7 r8),
      (h c).2.1.trans (Cert.KernelIdeal.Boundary.W8_grad m ρ c r0 r4 r5 r6 r7 r8), (h c).2.2⟩
  · refine (θ_run Cert.ReferenceIdeal.defs _ _).mono (fun r h c => ?_)
      (Cert.ReferenceIdeal.Value.run (F := Ideal) m' ρ')
    obtain ⟨g0, g1, g2, g3, g4, g5, g6, g7, g8⟩ := hagree c
    refine ⟨(h c).1.trans ?_, (h c).2.1.trans ?_, (h c).2.2⟩
    · rw [Cert.ReferenceIdeal.Read.val_main_v54_eq, g0, g1, g2, g3, g4, g5, g6, g7, g8]
    · rw [Cert.ReferenceIdeal.Read.val_main_v80_eq, g0, g1, g2, g3, g4, g5, g6, g7, g8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2)
    (Cert.ReferenceIdeal.Value.run (F := Ideal) m ρ),
  trivial,
  algebraic⟩

end Cert.Proof

end
